-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x512 : Shape := ⟨2, ![5000, 512]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S10000x128 : Shape := ⟨2, ![10000, 128]⟩
abbrev S10000x1 : Shape := ⟨2, ![10000, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 59
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x128_S512x128_0_0 : ∀ a, (![0, 0] : Fin 2 → Nat) a + S512x128.size a ≤ S512x128.size a
  h_S512x128 : 0 < S512x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000, .f32⟩
  | .hbm, ⟨103, _⟩ => ⟨S1700000, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x1, .f32⟩
  | .hbm, ⟨114, _⟩ => ⟨S1700000x64, .f32⟩
  | .hbm, ⟨115, _⟩ => ⟨S1700000x64, .f32⟩
  | .hbm, ⟨116, _⟩ => ⟨S_, .f32⟩
  | .hbm, ⟨117, _⟩ => ⟨S100000x64, .f32⟩
  | .hbm, ⟨118, _⟩ => ⟨S1700000x1, .i32⟩
  | .hbm, ⟨119, _⟩ => ⟨S100000x64, .f32⟩
  | .hbm, ⟨120, _⟩ => ⟨S1x64, .f32⟩
  | .hbm, ⟨121, _⟩ => ⟨S100000x64, .f32⟩
  | .hbm, ⟨122, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named.

  @main is nine segments: three stretches of host operations (the degrees and the normalisers), the first product
  kernel, the first gather and scatter-add, the first rescaling kernel and the second product kernel back to back,
  the second gather and scatter-add, the second rescaling kernel. The buffer contents at each boundary are a fold from
  the launch memory, ending at `W9`; the frame's run ends with EVERY unscoped buffer at `W9`, so the result buffer
  ends at `W9` of itself, beside the argument arrays as launched. What that value is, as a function of the
  arguments, is read through the fold in the next module.
-/
import proofs.«171281_j7215545057921_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents of it and the argument arrays as launched: the launch over the nine segments, the last thread
    state (every unscoped buffer at `W9`) read against the final state. -/
theorem run_result : θ_run defs (onTc (τ := τ) (main (F := F))) ⟨m, fun _ => 0, ρ⟩ (fun r => ∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v41 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.LibGcnSpec.lean ====
/-
  One normalised graph-convolution layer, entry by entry on the extended reals, in the two arrangements that are
  to be compared.

  With `xw = x · W` the transformed features, `dinv` the nodes' normalisers and an edge list given as a column of
  source rows and a column of destination rows, the layer's output at node `v`, feature `c` is

      Σ over the edges e that land on v of  xw (row read by e, c) · (dinv (source of e) · dinv (destination of e))  +  b c.

  One arrangement scales every edge's contribution by both normalisers before summing (`layerRef`). The other scales
  the ROWS of `xw` by `dinv` once (`scaledProduct`), sums the gathered rows unscaled (`aggregate`), and scales the
  row of sums by the destination's normaliser afterwards (`scaleBias`, or `scaleBiasRelu` when a rectifier follows).
  The definitions are generic in the sizes; the indices are built from coordinates by `ix1` / `ix2`.
-/
import Idealize.ShloMosaic.PureOps.Ideal
import Idealize.ShloMosaic.Lib.ValueIdx
import proofs.«171281_j7215545057921_2_alg».proof.Proof.LibRowGatherScatter

noncomputable section

open scoped BigOperators

namespace Cert.Gcn

open Idealize.ShloMosaic Idealize.ShloMosaic.ValueIdx Idealize.ShloMosaic.RowOps

/-- An `[n, c]` matrix, a vector of `n` entries, of extended reals; a column of `e` 32-bit row indices. -/
abbrev Mat (n c : Nat) : Type := FVec Ideal ⟨2, ![n, c]⟩ .f32
abbrev Vect (n : Nat) : Type := FVec Ideal ⟨1, ![n]⟩ .f32
abbrev Col (e : Nat) : Type := IVec ⟨2, ![e, 1]⟩ 32

/-- The matrix product: entry `(r, c)` is `Σ_k x (r, k) · w (k, c)`. -/
def product {n K C : Nat} (x : Mat n K) (w : Mat K C) : Mat n C :=
  fun i => ∑ k : Fin K, x (ix2 (i 0) k) * w (ix2 k (i 1))

/-- The product with every row `r` scaled by the column entry `s (r, 0)`. -/
def scaledProduct {n K C : Nat} (x : Mat n K) (w : Mat K C) (s : Mat n 1) : Mat n C :=
  fun i => product x w i * s (ix2 (i 0) (0 : Fin 1))

/-- Row `r` of `a` scaled by `s (r, 0)`, plus the bias row `b (0, ·)`. -/
def scaleBias {n C : Nat} (a : Mat n C) (s : Mat n 1) (b : Mat 1 C) : Mat n C :=
  fun i => a i * s (ix2 (i 0) (0 : Fin 1)) + b (ix2 (0 : Fin 1) (i 1))

/-- The same followed by the rectifier `max · 0`. -/
def scaleBiasRelu {n C : Nat} (a : Mat n C) (s : Mat n 1) (b : Mat 1 C) : Mat n C :=
  fun i => max (scaleBias a s b i) 0

/-- The rows of `h` read at the source column, summed onto the rows the destination column names: entry `(v, c)` is
    the sum over the edges that land on `v` of `h (row read by the edge, c)`. -/
def aggregate {N E C : Nat} (hN : 0 < N) (src dst : Col E) (h : Mat N C) : Mat N C :=
  fun i => ∑ e ∈ Finset.univ.filter (fun e : Fin E => lands dst e (i 0)), h (ix2 (pickRow hN src e) (i 1))

/-- The layer with every edge scaled by its two normalisers before the sum; `dstn` is the destination column as
    the gather of normalisers reads it. -/
def layerRef {N E C : Nat} (hN : 0 < N) (src dst dstn : Col E) (dinv : Vect N) (xw : Mat N C) (b : Vect C) : Mat N C :=
  fun i => (∑ e ∈ Finset.univ.filter (fun e : Fin E => lands dst e (i 0)),
      xw (ix2 (pickRow hN src e) (i 1)) * (dinv (ix1 (pickRow hN src e)) * dinv (ix1 (pickRow hN dstn e))))
    + b (ix1 (i 1))

/-! ## The definitions at coordinates -/

theorem product_apply {n K C : Nat} (x : Mat n K) (w : Mat K C) (r : Fin n) (c : Fin C) :
    product x w (ix2 r c) = ∑ k : Fin K, x (ix2 r k) * w (ix2 k c) := rfl

theorem scaledProduct_apply {n K C : Nat} (x : Mat n K) (w : Mat K C) (s : Mat n 1) (r : Fin n) (c : Fin C) :
    scaledProduct x w s (ix2 r c) = (∑ k : Fin K, x (ix2 r k) * w (ix2 k c)) * s (ix2 r (0 : Fin 1)) := rfl

theorem scaleBias_apply {n C : Nat} (a : Mat n C) (s : Mat n 1) (b : Mat 1 C) (r : Fin n) (c : Fin C) :
    scaleBias a s b (ix2 r c) = a (ix2 r c) * s (ix2 r (0 : Fin 1)) + b (ix2 (0 : Fin 1) c) := rfl

theorem scaleBiasRelu_apply {n C : Nat} (a : Mat n C) (s : Mat n 1) (b : Mat 1 C) (r : Fin n) (c : Fin C) :
    scaleBiasRelu a s b (ix2 r c) = max (a (ix2 r c) * s (ix2 r (0 : Fin 1)) + b (ix2 (0 : Fin 1) c)) 0 := rfl

theorem aggregate_apply {N E C : Nat} (hN : 0 < N) (src dst : Col E) (h : Mat N C) (v : Fin N) (c : Fin C) :
    aggregate hN src dst h (ix2 v c)
      = ∑ e ∈ Finset.univ.filter (fun e : Fin E => lands dst e v), h (ix2 (pickRow hN src e) c) := rfl

theorem layerRef_apply {N E C : Nat} (hN : 0 < N) (src dst dstn : Col E) (dinv : Vect N) (xw : Mat N C) (b : Vect C)
    (v : Fin N) (c : Fin C) :
    layerRef hN src dst dstn dinv xw b (ix2 v c)
      = (∑ e ∈ Finset.univ.filter (fun e : Fin E => lands dst e v),
          xw (ix2 (pickRow hN src e) c) * (dinv (ix1 (pickRow hN src e)) * dinv (ix1 (pickRow hN dstn e))))
        + b (ix1 c) := rfl

end Cert.Gcn

end
-- ==== Proof.LibGraphAggregate.lean ====
/-
  A weighted neighbourhood sum read at an entry.

  A graph layer aggregates the rows of a feature matrix `h : [N, C]` along edges: edge `e` reads the row its source
  index names, scales it by the edge's weight `wt e`, and adds it onto the row its destination index names, all
  destinations starting from zero. As host operations this is a row gather at a column of source indices, a product
  with the weights sent to a column `[E] → [E, 1]` and then across the `C` columns, and a row scatter-add into the
  zero matrix at a column of destination indices. Read at `(v, c)` on the extended reals it is

      Σ over the edges e that land on v of  h (row read by e, c) · wt e,

  the same formula at every width `C`: column `c` of the aggregate depends on column `c` of `h` alone. The dimension
  records are the literal ones of the row gather and row scatter, over any proof of their conditions.
-/
import Idealize.ShloMosaic.PureOps.Ideal.Laws
import Idealize.ShloMosaic.Lib.ValueIdx
import Idealize.ShloMosaic.Lib.Pipeline.Value
import proofs.«171281_j7215545057921_2_alg».proof.Proof.LibRowGatherScatter

noncomputable section

open scoped BigOperators

namespace Idealize.ShloMosaic.RowOps

open Idealize.ShloMosaic Idealize.ShloMosaic.ValueIdx

/-- A vector of `E` entries sent to a column `[E, 1]` and then across `C` columns holds entry `e` all along row `e`. -/
theorem weightColumns_apply {α : Type} {E C : Nat} (hE : E ≠ 1)
    (b1 : (⟨1, ![E]⟩ : Shape).BroadcastsInDim ⟨2, ![E, 1]⟩ ![0])
    (b2 : (⟨2, ![E, 1]⟩ : Shape).BroadcastsInDim ⟨2, ![E, C]⟩ ![0, 1])
    (wt : (⟨1, ![E]⟩ : Shape).Idx → α) (e : Fin E) (c : Fin C) :
    broadcastInDim ⟨2, ![E, C]⟩ ![0, 1] b2 (broadcastInDim ⟨2, ![E, 1]⟩ ![0] b1 wt) (ix2 e c) = wt (ix1 e) := by
  rw [broadcastInDim_apply _ b2 _ (ix2 e c) (ix2 e (0 : Fin 1)) (fun a => by
        match a with
        | ⟨0, _⟩ => show e.val = if E = 1 then 0 else e.val; rw [if_neg hE]
        | ⟨1, _⟩ => show 0 = if (1 : Nat) = 1 then 0 else c.val; rw [if_pos rfl]),
    broadcastInDim_apply _ b1 _ (ix2 e (0 : Fin 1)) (ix1 e) (fun a => by
        match a with
        | ⟨0, _⟩ => show e.val = if E = 1 then 0 else e.val; rw [if_neg hE])]

/-- The f32 zero pattern sent to every entry of a matrix is the number zero at every entry. -/
theorem zeroMatrix_apply {N C : Nat}
    (bz : (⟨0, ![]⟩ : Shape).BroadcastsInDim ⟨2, ![N, C]⟩ ![]) (i : (⟨2, ![N, C]⟩ : Shape).Idx) :
    broadcastInDim ⟨2, ![N, C]⟩ ![] bz (constant (F := Ideal) ⟨0, ![]⟩ .f32 0x00000000#32) i = (0 : EReal) := by
  rw [broadcastInDim_apply _ bz _ i (fun a => a.elim0) (fun a => a.elim0)]
  show Ideal.ofBits .f32 0x00000000#32 = 0
  exact Ideal.ofBits_zero_f32

/-- THE AGGREGATE READ AT `(v, c)`: the sum, over the edges whose destination index is `v`, of entry `c` of the
    row the edge's source index reads, times the edge's weight. -/
theorem aggregate_apply {N E C w : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (src dst : IVec ⟨2, ![E, 1]⟩ w) (wt : FVec Ideal ⟨1, ![E]⟩ .f32) (h : FVec Ideal ⟨2, ![N, C]⟩ .f32)
    (v : Fin N) (c : Fin C) :
    Host.scatterAdd (F := Ideal) (scatterRowsDims N E C wfs)
        (broadcastInDim ⟨2, ![N, C]⟩ ![] bz (constant (F := Ideal) ⟨0, ![]⟩ .f32 0x00000000#32)) dst
        (mulf (Host.gather (gatherRowsDims N E C wfg) h src)
          (broadcastInDim ⟨2, ![E, C]⟩ ![0, 1] b2 (broadcastInDim ⟨2, ![E, 1]⟩ ![0] b1 wt))) (ix2 v c)
      = ∑ e ∈ Finset.univ.filter (fun e : Fin E => lands dst e v), h (ix2 (pickRow hN src e) c) * wt (ix1 e) := by
  rw [scatterAdd_rows_apply wfs, zeroMatrix_apply, zero_add]
  refine Finset.sum_congr rfl fun e _ => ?_
  show FloatOps.mulf (Host.gather (gatherRowsDims N E C wfg) h src (ix2 e c))
      (broadcastInDim ⟨2, ![E, C]⟩ ![0, 1] b2 (broadcastInDim ⟨2, ![E, 1]⟩ ![0] b1 wt) (ix2 e c)) = _
  rw [gather_rows_apply hN wfg, weightColumns_apply hE b1 b2, Ideal.mulf_def]

end Idealize.ShloMosaic.RowOps

end
-- ==== Proof.KHost.lean ====
/-
  The idealized kernel's host operations, named.

  Between its four kernels the program computes, from the edge-index argument alone, the source and destination
  lists with one self-loop per node appended, the degree of every node (a scatter-add of ones at the destinations),
  and the normaliser `degree^(-1/2)` where the degree is positive, 0 elsewhere, laid out as a column; and, per layer, it
  gathers the rows of a matrix at the source column (negative indices wrapped once) and scatter-adds them into a zero
  matrix at the destination column. That last pair, read entry by entry, is the specification's `aggregate`: the sum,
  over the edges that land on a row, of the rows their sources read. `value` is the whole program's result as one
  function of the six arguments: product scaled by rows, aggregate, rescale + bias + rectifier, and the same again
  without the rectifier.
-/
import proofs.«171281_j7215545057921_2_alg».proof.Proof.Gen.KernelIdeal
import proofs.«171281_j7215545057921_2_alg».proof.Proof.LibGcnSpec
import proofs.«171281_j7215545057921_2_alg».proof.Proof.LibGraphAggregate
import Idealize.ShloMosaic.Lib.ValueIdx
import Idealize.ShloMosaic.Lib.Pipeline.Value

noncomputable section

open scoped BigOperators

namespace Cert.KernelIdeal.HostValue

open Cert.KernelIdeal Cert.KernelIdeal.Facts₀ Cert.KernelIdeal.Facts
open Idealize.ShloMosaic Idealize.ShloMosaic.ValueIdx Idealize.ShloMosaic.RowOps

/-- The source row of the edge index with the self-loops `0 … 99999` appended: 1 700 000 entries. -/
def srcList (a : IVec S2x1600000 32) : IVec S1700000 32 :=
  concatenate S1700000 0 [⟨S1600000, (shapeCast _ (extractStridedSlice S1x1600000 ![0, 0] a slices_S2x1600000_S1x1600000_0_0) shapeCasts_S1x1600000_S1600000)⟩, ⟨S100000, (iotaInDim S100000 32 0)⟩] concatenates_S1600000_S100000_S1700000_d0

/-- The destination row of the edge index with the same self-loops appended. -/
def dstList (a : IVec S2x1600000 32) : IVec S1700000 32 :=
  concatenate S1700000 0 [⟨S1600000, (shapeCast _ (extractStridedSlice S1x1600000 ![1, 0] a slices_S2x1600000_S1x1600000_1_0) shapeCasts_S1x1600000_S1600000)⟩, ⟨S100000, (iotaInDim S100000 32 0)⟩] concatenates_S1600000_S100000_S1700000_d0

/-- The source list with negative entries wrapped once (`s < 0 ↦ s + 100000`), as a column: what the row gathers read. -/
def srcCol (a : IVec S2x1600000 32) : IVec S1700000x1 32 :=
  broadcastInDim S1700000x1 ![0] bcast_S1700000_S1700000x1_0 (select (cmpi .slt (srcList a) (broadcastInDim S1700000 ![] bcast_S_S1700000 (constantI S_ 32 0#32))) (addi (srcList a) (broadcastInDim S1700000 ![] bcast_S_S1700000 (constantI S_ 32 100000#32))) (srcList a))

/-- The destination list as a column, unwrapped: what the scatter-adds read. -/
def dstCol (a : IVec S2x1600000 32) : IVec S1700000x1 32 :=
  broadcastInDim S1700000x1 ![0] bcast_S1700000_S1700000x1_0 (dstList a)

/-- Every node's degree: ones scatter-added at the destinations into zeros. -/
def degree (a : IVec S2x1600000 32) : FVec Ideal S100000 .f32 :=
  Host.scatterAdd (F := Ideal) scatter_S100000_S1700000x1_S1700000_n_0_0_1 (broadcastInDim S100000 ![] bcast_S_S100000 (constant (F := Ideal) S_ .f32 0x00000000#32)) (dstCol a) (broadcastInDim S1700000 ![] bcast_S_S1700000 (constant (F := Ideal) S_ .f32 0x3F800000#32))

/-- The normaliser: `degree^(-1/2)` where the degree is positive, 0 elsewhere. -/
def dinv (a : IVec S2x1600000 32) : FVec Ideal S100000 .f32 :=
  select (cmpf (F := Ideal) .ogt (degree a) (broadcastInDim S100000 ![] bcast_S_S100000 (constant (F := Ideal) S_ .f32 0x00000000#32))) (Host.rsqrt (F := Ideal) (degree a)) (broadcastInDim S100000 ![] bcast_S_S100000 (constant (F := Ideal) S_ .f32 0x00000000#32))

/-- The normaliser as a column `[100000, 1]`: what the kernels stage. -/
def dinvCol (a : IVec S2x1600000 32) : FVec Ideal S100000x1 .f32 :=
  shapeCast _ (dinv a) shapeCasts_S100000_S100000x1

/-! ## Gather the rows at the sources, scatter-add them at the destinations -/

/-- Width 128: the gathered rows scatter-added into the zero matrix are the specification's aggregate. -/
theorem gatherScatter128 (h : FVec Ideal S100000x128 .f32) (src dst : IVec S1700000x1 32) :
    Host.scatterAdd (F := Ideal) scatter_S100000x128_S1700000x1_S1700000x128_1_0_0_1
        (broadcastInDim S100000x128 ![] bcast_S_S100000x128 (constant (F := Ideal) S_ .f32 0x00000000#32)) dst
        (Host.gather gather_S100000x128_S1700000x1_S1700000x128_1_0_n_n_0_1_1128 h src)
      = Cert.Gcn.aggregate (N := 100000) (E := 1700000) (C := 128) (by decide) src dst h := by
  funext i
  obtain ⟨v, c, rfl⟩ : ∃ (v : Fin 100000) (c : Fin 128), i = ix2 v c := ⟨i 0, i 1, eq_ix2 i⟩
  rw [Cert.Gcn.aggregate_apply]
  refine (scatterAdd_rows_apply (N := 100000) (E := 1700000) (C := 128)
    scatter_S100000x128_S1700000x1_S1700000x128_1_0_0_1_wf _ dst _ v c).trans ?_
  rw [zeroMatrix_apply, zero_add]
  refine Finset.sum_congr rfl fun e _ => ?_
  exact gather_rows_apply (N := 100000) (E := 1700000) (C := 128) (by decide)
    gather_S100000x128_S1700000x1_S1700000x128_1_0_n_n_0_1_1128_wf h src e c

/-- Width 64: the same. -/
theorem gatherScatter64 (h : FVec Ideal S100000x64 .f32) (src dst : IVec S1700000x1 32) :
    Host.scatterAdd (F := Ideal) scatter_S100000x64_S1700000x1_S1700000x64_1_0_0_1
        (broadcastInDim S100000x64 ![] bcast_S_S100000x64 (constant (F := Ideal) S_ .f32 0x00000000#32)) dst
        (Host.gather gather_S100000x64_S1700000x1_S1700000x64_1_0_n_n_0_1_164 h src)
      = Cert.Gcn.aggregate (N := 100000) (E := 1700000) (C := 64) (by decide) src dst h := by
  funext i
  obtain ⟨v, c, rfl⟩ : ∃ (v : Fin 100000) (c : Fin 64), i = ix2 v c := ⟨i 0, i 1, eq_ix2 i⟩
  rw [Cert.Gcn.aggregate_apply]
  refine (scatterAdd_rows_apply (N := 100000) (E := 1700000) (C := 64)
    scatter_S100000x64_S1700000x1_S1700000x64_1_0_0_1_wf _ dst _ v c).trans ?_
  rw [zeroMatrix_apply, zero_add]
  refine Finset.sum_congr rfl fun e _ => ?_
  exact gather_rows_apply (N := 100000) (E := 1700000) (C := 64) (by decide)
    gather_S100000x64_S1700000x1_S1700000x64_1_0_n_n_0_1_164_wf h src e c

/-! ## The program's result as one function of its arguments -/

/-- Two layers: the product with rows scaled, the aggregate, the rescaling with the bias (and the rectifier after
    the first). -/
def value (x : FVec Ideal S100000x512 .f32) (a : IVec S2x1600000 32) (w1 : FVec Ideal S512x128 .f32)
    (b1 : FVec Ideal S128 .f32) (w2 : FVec Ideal S128x64 .f32) (b2 : FVec Ideal S64 .f32) : FVec Ideal S100000x64 .f32 :=
  Cert.Gcn.scaleBias (n := 100000) (C := 64)
    (Cert.Gcn.aggregate (N := 100000) (E := 1700000) (C := 64) (by decide) (srcCol a) (dstCol a)
      (Cert.Gcn.scaledProduct (n := 100000) (K := 128) (C := 64)
        (Cert.Gcn.scaleBiasRelu (n := 100000) (C := 128)
          (Cert.Gcn.aggregate (N := 100000) (E := 1700000) (C := 128) (by decide) (srcCol a) (dstCol a)
            (Cert.Gcn.scaledProduct (n := 100000) (K := 512) (C := 128) x w1 (dinvCol a)))
          (dinvCol a) (shapeCast _ b1 shapeCasts_S128_S1x128))
        w2 (dinvCol a)))
    (dinvCol a) (shapeCast _ b2 shapeCasts_S64_S1x64)

end Cert.KernelIdeal.HostValue

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KRegion0.lean ====
/-
  The first layer's opening region, read as one array.

  The region walks the 100000 rows of the input features in twenty blocks of 5000 rows, with the whole 512 × 128 weight
  matrix staged once.  On a block it forms the matrix product of the block's rows with the weights, accumulated from
  zero, and multiplies each row of the product by that row's normaliser (a column entry, the same in every feature).
  Entry (p, q) of the product is the sum over the 512 contracted coordinates k of feature (p, k) times weight (k, q),
  and depends on the block's row p alone, so the block written at grid point t is block t of `scaledProduct` at rows
  t · 5000 + p, and the twenty blocks tile the array: the array the region leaves is `scaledProduct` of the three
  arrays it found.
-/
import proofs.«171281_j7215545057921_2_alg».proof.Proof.Gen.KernelIdeal.Frame
import proofs.«171281_j7215545057921_2_alg».proof.Proof.LibGcnSpec
import proofs.«171281_j7215545057921_2_alg».proof.Proof.LibKeepdims
import proofs.«171281_j7215545057921_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zeroOff0 : (![0, 0] : Fin 2 → Nat) = fun _ => 0 := funext fun a => by fin_cases a <;> rfl

/-! ## The body at an entry -/

/-- Entry (p, q) of what the body stores: row p of the features against column q of the weights, summed over the 512
    contracted coordinates from a zero accumulator, times the row's normaliser. -/
theorem body0_apply (x0 : FVec Ideal S5000x512 .f32) (x1 : FVec Ideal S512x128 .f32) (x2 : FVec Ideal S5000x1 .f32)
    (p : Fin 5000) (q : Fin 128) :
    k0_pay1 (F := Ideal) x0 x1 x2 (ix2 p q)
      = (∑ k : Fin 512, x0 (ix2 p k) * x1 (ix2 k q)) * x2 (ix2 p (0 : Fin 1)) := by
  unfold k0_pay1
  simp only [shapeCast_self]
  refine (mulf_apply _ _ _).trans ?_
  exact congrArg₂ (· * ·)
    (Cert.PlainMatmul.matmul_zero_apply dot_S5000x512_S512x128_S5000x128_1_0_0_1_n_n_wf (some .fp32) x0 x1 p q)
    (Cert.Keepdims.broadcastTo_a1_ab_apply x2 _ p q)

/-- When the loaded feature row is row r of the feature array, the loaded weights are the weight array and the loaded
    normaliser is row r's, the stored entry is `scaledProduct` at (r, q). -/
theorem entry0 (x : Cert.Gcn.Mat 100000 512) (w : Cert.Gcn.Mat 512 128) (s : Cert.Gcn.Mat 100000 1)
    (x0 : FVec Ideal S5000x512 .f32) (x1 : FVec Ideal S512x128 .f32) (x2 : FVec Ideal S5000x1 .f32)
    (p : Fin 5000) (q : Fin 128) (r : Fin 100000)
    (h0 : ∀ k : Fin 512, x0 (ix2 p k) = x (ix2 r k)) (h1 : ∀ k : Fin 512, x1 (ix2 k q) = w (ix2 k q))
    (h2 : x2 (ix2 p (0 : Fin 1)) = s (ix2 r (0 : Fin 1))) :
    k0_pay1 (F := Ideal) x0 x1 x2 (ix2 p q) = Cert.Gcn.scaledProduct x w s (ix2 r q) := by
  rw [body0_apply, Cert.Gcn.scaledProduct_apply, h2]
  refine congrArg (· * s (ix2 r (0 : Fin 1))) (Finset.sum_congr rfl fun k _ => ?_)
  rw [h0 k, h1 k]

/-! ## Where the blocks sit -/

/-- The block indices over the grid: the two row-blocked inputs and the output are at block (t, 0), the weights at (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t, entry (p, k), is the feature array at row t · 5000 + p. -/
theorem read0_0 (c : Dev nD) (t : Fin cfg0.N) (p : Fin 5000) (k : Fin 512) (r : Fin 100000)
    (hr : r.val = t.val * 5000 + p.val) :
    (iblk0 V c 0 t : FVec Ideal S5000x512 .f32) (ix2 p k) = (V c main_arg0 : S100000x512.Idx → Elt Ideal .f32) (ix2 r k) := by
  obtain ⟨e0, e1, -⟩ := blockIdx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The weight block is the whole weight matrix at every point. -/
theorem read0_1 (c : Dev nD) (t : Fin cfg0.N) (k : Fin 512) (q : Fin 128) :
    (iblk0 V c 1 t : FVec Ideal S512x128 .f32) (ix2 k q) = (V c main_arg2 : S512x128.Idx → Elt Ideal .f32) (ix2 k q) := by
  obtain ⟨-, -, e0, e1, -⟩ := blockIdx0 t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- The normaliser block at point t, entry (p, 0), is the normaliser column at row t · 5000 + p. -/
theorem read0_2 (c : Dev nD) (t : Fin cfg0.N) (p : Fin 5000) (r : Fin 100000)
    (hr : r.val = t.val * 5000 + p.val) :
    (iblk0 V c 2 t : FVec Ideal S5000x1 .f32) (ix2 p (0 : Fin 1)) = (V c main_v15 : S100000x1.Idx → Elt Ideal .f32) (ix2 r (0 : Fin 1)) := by
  obtain ⟨-, -, -, -, e0, e1, -⟩ := blockIdx0 t
  unfold iblk0
  rw [View.read_apply]
  show V c main_v15 _ = V c main_v15 _
  refine congrArg (V c main_v15) (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- The output block at point t, read off an array G, has at (p, q) the array's entry at row t · 5000 + p. -/
theorem read0_3 (G : S100000x128.Idx → Elt Ideal .f32) (t : Fin cfg0.N) (p : Fin 5000) (q : Fin 128) (r : Fin 100000)
    (hr : r.val = t.val * 5000 + p.val) :
    (((cfg0.win 3).blk t).view.read (Elt Ideal) G : S5000x128.Idx → Elt Ideal .f32) (ix2 p q) = G (ix2 r q) := by
  obtain ⟨-, -, -, -, -, -, e0, e1⟩ := blockIdx0 t
  rw [View.read_apply]
  show G _ = G _
  refine congrArg G (funext fun a => Fin.ext ?_)
  match a with
  | ⟨0, _⟩ => show win0_3.index t (0 : Fin 2) * 5000 + 1 * p.val = r.val; omega
  | ⟨1, _⟩ => show win0_3.index t (1 : Fin 2) * 128 + 1 * q.val = q.val; omega

/-- The output window is uncut: its staging buffer is written back entry for entry. -/
theorem cut0_apply (t : Fin cfg0.N) (X : S5000x128.Idx → Elt Ideal .f32) (p : Fin 5000) (q : Fin 128) :
    (cfg0.win 3).cut (grid0.coords t) X (ix2 p q) = X (ix2 p q) :=
  congrArg X (funext fun a => Fin.ext (by match a with | ⟨0, _⟩ => rfl | ⟨1, _⟩ => rfl))

/-! ## What a point writes back, the cover, the array -/

/-- Grid point t writes back block t of `scaledProduct` of the arrays the region found. -/
theorem flushed0_eq (c : Dev nD) (t : Fin cfg0.N) :
    (dat0 (F := Ideal) V c).flushed 3 t = ((cfg0.win 3).blk t).view.read (Elt Ideal)
      (Cert.Gcn.scaledProduct (n := 100000) (K := 512) (C := 128) (V c main_arg0) (V c main_arg2) (V c main_v15)) := by
  show (cfg0.win 3).cut (grid0.coords t) ((dat0 V c).after 3 t) = _
  rw [after0_3]
  unfold out0_3
  rw [View.canon_unit_zero zeroOff0]
  simp only [View.ld_unit_zero (S := S5000x512) zeroOff0, View.ld_unit_zero (S := S512x128) zeroOff0,
    View.ld_unit_zero (S := S5000x1) zeroOff0]
  refine funext fun (j : S5000x128.Idx) => ?_
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hlt : t.val * 5000 + p.val < 100000 := by omega
  refine (cut0_apply t _ p q).trans ?_
  refine Eq.trans ?_ (read0_3 _ t p q ⟨t.val * 5000 + p.val, hlt⟩ rfl).symm
  exact entry0 (V c main_arg0) (V c main_arg2) (V c main_v15) (iblk0 V c 0 t) (iblk0 V c 1 t) (iblk0 V c 2 t) p q
    ⟨t.val * 5000 + p.val, hlt⟩ (fun k => read0_0 V c t p k _ rfl) (fun k => read0_1 V c t k q) (read0_2 V c t p _ rfl)

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r lies in the block of point r / 5000: the twenty blocks tile the array. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  have hlt : (i 0).val / 5000 < cfg0.N := by omega
  obtain ⟨-, -, -, -, -, -, e0, e1⟩ := blockIdx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- The array the region leaves: the features times the weights, every row scaled by its normaliser. -/
theorem region0_array (c : Dev nD) :
    (dat0 (F := Ideal) V c).arrAt 3 cfg0.N
      = Cert.Gcn.scaledProduct (n := 100000) (K := 512) (C := 128) (V c main_arg0) (V c main_arg2) (V c main_v15) :=
  (dat0 (F := Ideal) V c).arrAt_eq_of_cover 3 _ (fun t _ => flushed0_eq V c t) cover0

end Cert.KernelIdeal.RegionValue

end
-- ==== Proof.KRegion1.lean ====
/-
  The first layer's closing region, read as one array.

  The region walks the 100000 rows of the aggregated features in ten blocks of 10000 rows.  On a block it multiplies
  each row by that row's normaliser (a column entry, the same in every feature), adds the bias row (the same in every
  row) and applies the rectifier, the maximum with zero.  Every step is entrywise, so entry (p, q) of the block
  written at grid point t is the entry of `scaleBiasRelu` at row t · 10000 + p, and the ten blocks tile the array:
  the array the region leaves is `scaleBiasRelu` of the three arrays it found.
-/
import proofs.«171281_j7215545057921_2_alg».proof.Proof.Gen.KernelIdeal.Frame
import proofs.«171281_j7215545057921_2_alg».proof.Proof.LibGcnSpec
import proofs.«171281_j7215545057921_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zeroOff1 : (![0, 0] : Fin 2 → Nat) = fun _ => 0 := funext fun a => by fin_cases a <;> rfl

/-! ## The body at an entry -/

/-- Entry (p, q) of what the body stores: the feature entry times the row's normaliser, plus the bias of column q,
    rectified. The zero the maximum is taken with is the 32-bit zero word read as an extended real. -/
theorem body1_apply (x0 : FVec Ideal S10000x128 .f32) (x1 : FVec Ideal S10000x1 .f32) (x2 : FVec Ideal S1x128 .f32)
    (p : Fin 10000) (q : Fin 128) :
    k1_pay1 (F := Ideal) x0 x1 x2 (ix2 p q)
      = max (x0 (ix2 p q) * x1 (ix2 p (0 : Fin 1)) + x2 (ix2 (0 : Fin 1) q)) 0 := by
  unfold k1_pay1
  simp only [shapeCast_self]
  refine (maximumf_apply _ _ _).trans ?_
  refine congrArg₂ max ((addf_apply _ _ _).trans ?_)
    ((show Scalar.ofBits (F := Ideal) .f32 0x00000000#32 = Ideal.ofBits .f32 0x00000000#32 from rfl).trans
      Ideal.ofBits_zero_f32)
  exact congrArg₂ (· + ·)
    ((mulf_apply _ _ _).trans (congrArg (x0 (ix2 p q) * ·) (Cert.Keepdims.broadcastTo_a1_ab_apply x1 _ p q)))
    (broadcastTo_1b_ab_apply x2 _ p q)

/-- When the three loaded entries are the arrays' entries of row r, the stored entry is `scaleBiasRelu` at (r, q). -/
theorem entry1 (a : Cert.Gcn.Mat 100000 128) (s : Cert.Gcn.Mat 100000 1) (b : Cert.Gcn.Mat 1 128)
    (x0 : FVec Ideal S10000x128 .f32) (x1 : FVec Ideal S10000x1 .f32) (x2 : FVec Ideal S1x128 .f32)
    (p : Fin 10000) (q : Fin 128) (r : Fin 100000)
    (h0 : x0 (ix2 p q) = a (ix2 r q)) (h1 : x1 (ix2 p (0 : Fin 1)) = s (ix2 r (0 : Fin 1)))
    (h2 : x2 (ix2 (0 : Fin 1) q) = b (ix2 (0 : Fin 1) q)) :
    k1_pay1 (F := Ideal) x0 x1 x2 (ix2 p q) = Cert.Gcn.scaleBiasRelu a s b (ix2 r q) := by
  rw [body1_apply, Cert.Gcn.scaleBiasRelu_apply, h0, h1, h2]

/-! ## Where the blocks sit -/

/-- The block indices over the grid: the two row-blocked inputs and the output are at block (t, 0), the bias row at (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point t, entry (p, q), is the feature array at row t · 10000 + p. -/
theorem read1_0 (c : Dev nD) (t : Fin cfg1.N) (p : Fin 10000) (q : Fin 128) (r : Fin 100000)
    (hr : r.val = t.val * 10000 + p.val) :
    (iblk1 V c 0 t : FVec Ideal S10000x128 .f32) (ix2 p q) = (V c main_v26 : S100000x128.Idx → Elt Ideal .f32) (ix2 r q) := by
  obtain ⟨e0, e1, -⟩ := blockIdx1 t
  unfold iblk1
  rw [View.read_apply]
  show V c main_v26 _ = V c main_v26 _
  refine congrArg (V c main_v26) (funext fun a => Fin.ext ?_)
  match a with
  | ⟨0, _⟩ => show win1_0.index t (0 : Fin 2) * 10000 + 1 * p.val = r.val; omega
  | ⟨1, _⟩ => show win1_0.index t (1 : Fin 2) * 128 + 1 * q.val = q.val; omega

/-- The normaliser block at point t, entry (p, 0), is the normaliser column at row t · 10000 + p. -/
theorem read1_1 (c : Dev nD) (t : Fin cfg1.N) (p : Fin 10000) (r : Fin 100000)
    (hr : r.val = t.val * 10000 + p.val) :
    (iblk1 V c 1 t : FVec Ideal S10000x1 .f32) (ix2 p (0 : Fin 1)) = (V c main_v15 : S100000x1.Idx → Elt Ideal .f32) (ix2 r (0 : Fin 1)) := by
  obtain ⟨-, -, e0, e1, -⟩ := blockIdx1 t
  unfold iblk1
  rw [View.read_apply]
  show V c main_v15 _ = V c main_v15 _
  refine congrArg (V c main_v15) (funext fun a => Fin.ext ?_)
  match a with
  | ⟨0, _⟩ => show win1_1.index t (0 : Fin 2) * 10000 + 1 * p.val = r.val; omega
  | ⟨1, _⟩ => show win1_1.index t (1 : Fin 2) * 1 + 1 * (0 : Fin 1).val = (0 : Fin 1).val; omega

/-- The bias block is the whole bias row at every point. -/
theorem read1_2 (c : Dev nD) (t : Fin cfg1.N) (q : Fin 128) :
    (iblk1 V c 2 t : FVec Ideal S1x128 .f32) (ix2 (0 : Fin 1) q) = (V c main_v27 : S1x128.Idx → Elt Ideal .f32) (ix2 (0 : Fin 1) q) := by
  obtain ⟨-, -, -, -, e0, e1, -⟩ := blockIdx1 t
  unfold iblk1
  rw [View.read_apply]
  show V c main_v27 _ = V c main_v27 _
  refine congrArg (V c main_v27) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- The output block at point t, read off an array G, has at (p, q) the array's entry at row t · 10000 + p. -/
theorem read1_3 (G : S100000x128.Idx → Elt Ideal .f32) (t : Fin cfg1.N) (p : Fin 10000) (q : Fin 128) (r : Fin 100000)
    (hr : r.val = t.val * 10000 + p.val) :
    (((cfg1.win 3).blk t).view.read (Elt Ideal) G : S10000x128.Idx → Elt Ideal .f32) (ix2 p q) = G (ix2 r q) := by
  obtain ⟨-, -, -, -, -, -, e0, e1⟩ := blockIdx1 t
  rw [View.read_apply]
  show G _ = G _
  refine congrArg G (funext fun a => Fin.ext ?_)
  match a with
  | ⟨0, _⟩ => show win1_3.index t (0 : Fin 2) * 10000 + 1 * p.val = r.val; omega
  | ⟨1, _⟩ => show win1_3.index t (1 : Fin 2) * 128 + 1 * q.val = q.val; omega

/-- The output window is uncut: its staging buffer is written back entry for entry. -/
theorem cut1_apply (t : Fin cfg1.N) (X : S10000x128.Idx → Elt Ideal .f32) (p : Fin 10000) (q : Fin 128) :
    (cfg1.win 3).cut (grid1.coords t) X (ix2 p q) = X (ix2 p q) :=
  congrArg X (funext fun a => Fin.ext (by match a with | ⟨0, _⟩ => rfl | ⟨1, _⟩ => rfl))

/-! ## What a point writes back, the cover, the array -/

/-- Grid point t writes back block t of `scaleBiasRelu` of the arrays the region found. -/
theorem flushed1_eq (c : Dev nD) (t : Fin cfg1.N) :
    (dat1 (F := Ideal) V c).flushed 3 t = ((cfg1.win 3).blk t).view.read (Elt Ideal)
      (Cert.Gcn.scaleBiasRelu (n := 100000) (C := 128) (V c main_v26) (V c main_v15) (V c main_v27)) := by
  show (cfg1.win 3).cut (grid1.coords t) ((dat1 V c).after 3 t) = _
  rw [after1_3]
  unfold out1_3
  rw [View.canon_unit_zero zeroOff1]
  simp only [View.ld_unit_zero (S := S10000x128) zeroOff1, View.ld_unit_zero (S := S10000x1) zeroOff1,
    View.ld_unit_zero (S := S1x128) zeroOff1]
  refine funext fun (j : S10000x128.Idx) => ?_
  obtain ⟨p, q, rfl⟩ : ∃ (p : Fin 10000) (q : Fin 128), j = ix2 p q := ⟨j 0, j 1, eq_ix2 j⟩
  have hN : cfg1.N = 10 := N_1
  have ht : t.val < 10 := hN ▸ t.isLt
  have hlt : t.val * 10000 + p.val < 100000 := by omega
  refine (cut1_apply t _ p q).trans ?_
  refine Eq.trans ?_ (read1_3 _ t p q ⟨t.val * 10000 + p.val, hlt⟩ rfl).symm
  exact entry1 (V c main_v26) (V c main_v15) (V c main_v27) (iblk1 V c 0 t) (iblk1 V c 1 t) (iblk1 V c 2 t) p q
    ⟨t.val * 10000 + p.val, hlt⟩ (read1_0 V c t p q _ rfl) (read1_1 V c t p _ rfl) (read1_2 V c t q)

/-- An index of the array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v28).slice (win1_3.rect t)).set ↔ _
  rw [View.set_slice_whole, Rect.mem_set_unit]
  exact Iff.rfl

/-- Row r lies in the block of point r / 10000: the ten blocks tile the array. -/
theorem cover1 (i : S100000x128.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  have hlt : (i 0).val / 10000 < cfg1.N := by omega
  obtain ⟨-, -, -, -, -, -, e0, e1⟩ := blockIdx1 ⟨(i 0).val / 10000, hlt⟩
  refine ⟨⟨(i 0).val / 10000, hlt⟩, flush1_3 _, ?_⟩
  rw [mem_blk1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val
      ∧ (i 1).val < win1_3.index ⟨(i 0).val / 10000, hlt⟩ (1 : Fin 2) * 128 + 128
    rw [e1]; omega

/-- The array the region leaves: every row scaled by its normaliser, plus the bias row, rectified. -/
theorem region1_array (c : Dev nD) :
    (dat1 (F := Ideal) V c).arrAt 3 cfg1.N
      = Cert.Gcn.scaleBiasRelu (n := 100000) (C := 128) (V c main_v26) (V c main_v15) (V c main_v27) :=
  (dat1 (F := Ideal) V c).arrAt_eq_of_cover 3 _ (fun t _ => flushed1_eq V c t) cover1

end Cert.KernelIdeal.RegionValue

end
-- ==== Proof.KRegion2.lean ====
/-
  The second layer's opening region, read as one array.

  The region walks the 100000 rows of the first layer's output in twenty blocks of 5000 rows, with the whole 128 × 64
  weight matrix staged once.  On a block it forms the matrix product of the block's rows with the weights, accumulated
  from zero, and multiplies each row of the product by that row's normaliser (a column entry, the same in every
  feature).  Entry (p, q) of the product is the sum over the 128 contracted coordinates k of feature (p, k) times
  weight (k, q), and depends on the block's row p alone, so the block written at grid point t is block t of
  `scaledProduct` at rows t · 5000 + p, and the twenty blocks tile the array: the array the region leaves is
  `scaledProduct` of the three arrays it found.
-/
import proofs.«171281_j7215545057921_2_alg».proof.Proof.Gen.KernelIdeal.Frame
import proofs.«171281_j7215545057921_2_alg».proof.Proof.LibGcnSpec
import proofs.«171281_j7215545057921_2_alg».proof.Proof.LibKeepdims
import proofs.«171281_j7215545057921_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zeroOff2 : (![0, 0] : Fin 2 → Nat) = fun _ => 0 := funext fun a => by fin_cases a <;> rfl

/-! ## The body at an entry -/

/-- Entry (p, q) of what the body stores: row p of the features against column q of the weights, summed over the 128
    contracted coordinates from a zero accumulator, times the row's normaliser. -/
theorem body2_apply (x0 : FVec Ideal S5000x128 .f32) (x1 : FVec Ideal S128x64 .f32) (x2 : FVec Ideal S5000x1 .f32)
    (p : Fin 5000) (q : Fin 64) :
    k2_pay1 (F := Ideal) x0 x1 x2 (ix2 p q)
      = (∑ k : Fin 128, x0 (ix2 p k) * x1 (ix2 k q)) * x2 (ix2 p (0 : Fin 1)) := by
  unfold k2_pay1
  simp only [shapeCast_self]
  refine (mulf_apply _ _ _).trans ?_
  exact congrArg₂ (· * ·)
    (Cert.PlainMatmul.matmul_zero_apply dot_S5000x128_S128x64_S5000x64_1_0_0_1_n_n_wf (some .fp32) x0 x1 p q)
    (Cert.Keepdims.broadcastTo_a1_ab_apply x2 _ p q)

/-- When the loaded feature row is row r of the feature array, the loaded weights are the weight array and the loaded
    normaliser is row r's, the stored entry is `scaledProduct` at (r, q). -/
theorem entry2 (x : Cert.Gcn.Mat 100000 128) (w : Cert.Gcn.Mat 128 64) (s : Cert.Gcn.Mat 100000 1)
    (x0 : FVec Ideal S5000x128 .f32) (x1 : FVec Ideal S128x64 .f32) (x2 : FVec Ideal S5000x1 .f32)
    (p : Fin 5000) (q : Fin 64) (r : Fin 100000)
    (h0 : ∀ k : Fin 128, x0 (ix2 p k) = x (ix2 r k)) (h1 : ∀ k : Fin 128, x1 (ix2 k q) = w (ix2 k q))
    (h2 : x2 (ix2 p (0 : Fin 1)) = s (ix2 r (0 : Fin 1))) :
    k2_pay1 (F := Ideal) x0 x1 x2 (ix2 p q) = Cert.Gcn.scaledProduct x w s (ix2 r q) := by
  rw [body2_apply, Cert.Gcn.scaledProduct_apply, h2]
  refine congrArg (· * s (ix2 r (0 : Fin 1))) (Finset.sum_congr rfl fun k _ => ?_)
  rw [h0 k, h1 k]

/-! ## Where the blocks sit -/

/-- The block indices over the grid: the two row-blocked inputs and the output are at block (t, 0), the weights at (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature block at point t, entry (p, k), is the feature array at row t · 5000 + p. -/
theorem read2_0 (c : Dev nD) (t : Fin cfg2.N) (p : Fin 5000) (k : Fin 128) (r : Fin 100000)
    (hr : r.val = t.val * 5000 + p.val) :
    (iblk2 V c 0 t : FVec Ideal S5000x128 .f32) (ix2 p k) = (V c main_v28 : S100000x128.Idx → Elt Ideal .f32) (ix2 r k) := by
  obtain ⟨e0, e1, -⟩ := blockIdx2 t
  unfold iblk2
  rw [View.read_apply]
  show V c main_v28 _ = V c main_v28 _
  refine congrArg (V c main_v28) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight block is the whole weight matrix at every point. -/
theorem read2_1 (c : Dev nD) (t : Fin cfg2.N) (k : Fin 128) (q : Fin 64) :
    (iblk2 V c 1 t : FVec Ideal S128x64 .f32) (ix2 k q) = (V c main_arg4 : S128x64.Idx → Elt Ideal .f32) (ix2 k q) := by
  obtain ⟨-, -, e0, e1, -⟩ := blockIdx2 t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

/-- The normaliser block at point t, entry (p, 0), is the normaliser column at row t · 5000 + p. -/
theorem read2_2 (c : Dev nD) (t : Fin cfg2.N) (p : Fin 5000) (r : Fin 100000)
    (hr : r.val = t.val * 5000 + p.val) :
    (iblk2 V c 2 t : FVec Ideal S5000x1 .f32) (ix2 p (0 : Fin 1)) = (V c main_v15 : S100000x1.Idx → Elt Ideal .f32) (ix2 r (0 : Fin 1)) := by
  obtain ⟨-, -, -, -, e0, e1, -⟩ := blockIdx2 t
  unfold iblk2
  rw [View.read_apply]
  show V c main_v15 _ = V c main_v15 _
  refine congrArg (V c main_v15) (funext fun a => Fin.ext ?_)
  match a with
  | ⟨0, _⟩ => show win2_2.index t (0 : Fin 2) * 5000 + 1 * p.val = r.val; omega
  | ⟨1, _⟩ => show win2_2.index t (1 : Fin 2) * 1 + 1 * (0 : Fin 1).val = (0 : Fin 1).val; omega

/-- The output block at point t, read off an array G, has at (p, q) the array's entry at row t · 5000 + p. -/
theorem read2_3 (G : S100000x64.Idx → Elt Ideal .f32) (t : Fin cfg2.N) (p : Fin 5000) (q : Fin 64) (r : Fin 100000)
    (hr : r.val = t.val * 5000 + p.val) :
    (((cfg2.win 3).blk t).view.read (Elt Ideal) G : S5000x64.Idx → Elt Ideal .f32) (ix2 p q) = G (ix2 r q) := by
  obtain ⟨-, -, -, -, -, -, e0, e1⟩ := blockIdx2 t
  rw [View.read_apply]
  show G _ = G _
  refine congrArg G (funext fun a => Fin.ext ?_)
  match a with
  | ⟨0, _⟩ => show win2_3.index t (0 : Fin 2) * 5000 + 1 * p.val = r.val; omega
  | ⟨1, _⟩ => show win2_3.index t (1 : Fin 2) * 64 + 1 * q.val = q.val; omega

/-- The output window is uncut: its staging buffer is written back entry for entry. -/
theorem cut2_apply (t : Fin cfg2.N) (X : S5000x64.Idx → Elt Ideal .f32) (p : Fin 5000) (q : Fin 64) :
    (cfg2.win 3).cut (grid2.coords t) X (ix2 p q) = X (ix2 p q) :=
  congrArg X (funext fun a => Fin.ext (by match a with | ⟨0, _⟩ => rfl | ⟨1, _⟩ => rfl))

/-! ## What a point writes back, the cover, the array -/

/-- Grid point t writes back block t of `scaledProduct` of the arrays the region found. -/
theorem flushed2_eq (c : Dev nD) (t : Fin cfg2.N) :
    (dat2 (F := Ideal) V c).flushed 3 t = ((cfg2.win 3).blk t).view.read (Elt Ideal)
      (Cert.Gcn.scaledProduct (n := 100000) (K := 128) (C := 64) (V c main_v28) (V c main_arg4) (V c main_v15)) := by
  show (cfg2.win 3).cut (grid2.coords t) ((dat2 V c).after 3 t) = _
  rw [after2_3]
  unfold out2_3
  rw [View.canon_unit_zero zeroOff2]
  simp only [View.ld_unit_zero (S := S5000x128) zeroOff2, View.ld_unit_zero (S := S128x64) zeroOff2,
    View.ld_unit_zero (S := S5000x1) zeroOff2]
  refine funext fun (j : S5000x64.Idx) => ?_
  obtain ⟨p, q, rfl⟩ : ∃ (p : Fin 5000) (q : Fin 64), j = ix2 p q := ⟨j 0, j 1, eq_ix2 j⟩
  have hN : cfg2.N = 20 := N_2
  have ht : t.val < 20 := hN ▸ t.isLt
  have hlt : t.val * 5000 + p.val < 100000 := by omega
  refine (cut2_apply t _ p q).trans ?_
  refine Eq.trans ?_ (read2_3 _ t p q ⟨t.val * 5000 + p.val, hlt⟩ rfl).symm
  exact entry2 (V c main_v28) (V c main_arg4) (V c main_v15) (iblk2 V c 0 t) (iblk2 V c 1 t) (iblk2 V c 2 t) p q
    ⟨t.val * 5000 + p.val, hlt⟩ (fun k => read2_0 V c t p k _ rfl) (fun k => read2_1 V c t k q) (read2_2 V c t p _ rfl)

/-- An index of the array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v29).slice (win2_3.rect t)).set ↔ _
  rw [View.set_slice_whole, Rect.mem_set_unit]
  exact Iff.rfl

/-- Row r lies in the block of point r / 5000: the twenty blocks tile the array. -/
theorem cover2 (i : S100000x64.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  have hlt : (i 0).val / 5000 < cfg2.N := by omega
  obtain ⟨-, -, -, -, -, -, e0, e1⟩ := blockIdx2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hlt⟩ (1 : Fin 2) * 64 ≤ (i 1).val
      ∧ (i 1).val < win2_3.index ⟨(i 0).val / 5000, hlt⟩ (1 : Fin 2) * 64 + 64
    rw [e1]; omega

/-- The array the region leaves: the features times the weights, every row scaled by its normaliser. -/
theorem region2_array (c : Dev nD) :
    (dat2 (F := Ideal) V c).arrAt 3 cfg2.N
      = Cert.Gcn.scaledProduct (n := 100000) (K := 128) (C := 64) (V c main_v28) (V c main_arg4) (V c main_v15) :=
  (dat2 (F := Ideal) V c).arrAt_eq_of_cover 3 _ (fun t _ => flushed2_eq V c t) cover2

end Cert.KernelIdeal.RegionValue

end
-- ==== Proof.KRegion3.lean ====
/-
  The second layer's closing region, read as one array.

  The region walks the 100000 rows of the aggregated features in ten blocks of 10000 rows.  On a block it multiplies
  each row by that row's normaliser (a column entry, the same in every feature) and adds the bias row (the same in
  every row).  Every step is entrywise, so entry (p, q) of the block written at grid point t is the entry of
  `scaleBias` at row t · 10000 + p, and the ten blocks tile the array: the array the region leaves is `scaleBias` of
  the three arrays it found.
-/
import proofs.«171281_j7215545057921_2_alg».proof.Proof.Gen.KernelIdeal.Frame
import proofs.«171281_j7215545057921_2_alg».proof.Proof.LibGcnSpec
import proofs.«171281_j7215545057921_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zeroOff3 : (![0, 0] : Fin 2 → Nat) = fun _ => 0 := funext fun a => by fin_cases a <;> rfl

/-! ## The body at an entry -/

/-- Entry (p, q) of what the body stores: the feature entry times the row's normaliser, plus the bias of column q. -/
theorem body3_apply (x0 : FVec Ideal S10000x64 .f32) (x1 : FVec Ideal S10000x1 .f32) (x2 : FVec Ideal S1x64 .f32)
    (p : Fin 10000) (q : Fin 64) :
    k3_pay1 (F := Ideal) x0 x1 x2 (ix2 p q) = x0 (ix2 p q) * x1 (ix2 p (0 : Fin 1)) + x2 (ix2 (0 : Fin 1) q) := by
  unfold k3_pay1
  simp only [shapeCast_self]
  refine (addf_apply _ _ _).trans ?_
  exact congrArg₂ (· + ·)
    ((mulf_apply _ _ _).trans (congrArg (x0 (ix2 p q) * ·) (Cert.Keepdims.broadcastTo_a1_ab_apply x1 _ p q)))
    (broadcastTo_1b_ab_apply x2 _ p q)

/-- When the three loaded entries are the arrays' entries of row r, the stored entry is `scaleBias` at (r, q). -/
theorem entry3 (a : Cert.Gcn.Mat 100000 64) (s : Cert.Gcn.Mat 100000 1) (b : Cert.Gcn.Mat 1 64)
    (x0 : FVec Ideal S10000x64 .f32) (x1 : FVec Ideal S10000x1 .f32) (x2 : FVec Ideal S1x64 .f32)
    (p : Fin 10000) (q : Fin 64) (r : Fin 100000)
    (h0 : x0 (ix2 p q) = a (ix2 r q)) (h1 : x1 (ix2 p (0 : Fin 1)) = s (ix2 r (0 : Fin 1)))
    (h2 : x2 (ix2 (0 : Fin 1) q) = b (ix2 (0 : Fin 1) q)) :
    k3_pay1 (F := Ideal) x0 x1 x2 (ix2 p q) = Cert.Gcn.scaleBias a s b (ix2 r q) := by
  rw [body3_apply, Cert.Gcn.scaleBias_apply, h0, h1, h2]

/-! ## Where the blocks sit -/

/-- The block indices over the grid: the two row-blocked inputs and the output are at block (t, 0), the bias row at (0, 0). -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point t, entry (p, q), is the feature array at row t · 10000 + p. -/
theorem read3_0 (c : Dev nD) (t : Fin cfg3.N) (p : Fin 10000) (q : Fin 64) (r : Fin 100000)
    (hr : r.val = t.val * 10000 + p.val) :
    (iblk3 V c 0 t : FVec Ideal S10000x64 .f32) (ix2 p q) = (V c main_v39 : S100000x64.Idx → Elt Ideal .f32) (ix2 r q) := by
  obtain ⟨e0, e1, -⟩ := blockIdx3 t
  unfold iblk3
  rw [View.read_apply]
  show V c main_v39 _ = V c main_v39 _
  refine congrArg (V c main_v39) (funext fun a => Fin.ext ?_)
  match a with
  | ⟨0, _⟩ => show win3_0.index t (0 : Fin 2) * 10000 + 1 * p.val = r.val; omega
  | ⟨1, _⟩ => show win3_0.index t (1 : Fin 2) * 64 + 1 * q.val = q.val; omega

/-- The normaliser block at point t, entry (p, 0), is the normaliser column at row t · 10000 + p. -/
theorem read3_1 (c : Dev nD) (t : Fin cfg3.N) (p : Fin 10000) (r : Fin 100000)
    (hr : r.val = t.val * 10000 + p.val) :
    (iblk3 V c 1 t : FVec Ideal S10000x1 .f32) (ix2 p (0 : Fin 1)) = (V c main_v15 : S100000x1.Idx → Elt Ideal .f32) (ix2 r (0 : Fin 1)) := by
  obtain ⟨-, -, e0, e1, -⟩ := blockIdx3 t
  unfold iblk3
  rw [View.read_apply]
  show V c main_v15 _ = V c main_v15 _
  refine congrArg (V c main_v15) (funext fun a => Fin.ext ?_)
  match a with
  | ⟨0, _⟩ => show win3_1.index t (0 : Fin 2) * 10000 + 1 * p.val = r.val; omega
  | ⟨1, _⟩ => show win3_1.index t (1 : Fin 2) * 1 + 1 * (0 : Fin 1).val = (0 : Fin 1).val; omega

/-- The bias block is the whole bias row at every point. -/
theorem read3_2 (c : Dev nD) (t : Fin cfg3.N) (q : Fin 64) :
    (iblk3 V c 2 t : FVec Ideal S1x64 .f32) (ix2 (0 : Fin 1) q) = (V c main_v40 : S1x64.Idx → Elt Ideal .f32) (ix2 (0 : Fin 1) q) := by
  obtain ⟨-, -, -, -, e0, e1, -⟩ := blockIdx3 t
  unfold iblk3
  rw [View.read_apply]
  show V c main_v40 _ = V c main_v40 _
  refine congrArg (V c main_v40) (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 64 + 1 * q.val = q.val; omega

/-- The output block at point t, read off an array G, has at (p, q) the array's entry at row t · 10000 + p. -/
theorem read3_3 (G : S100000x64.Idx → Elt Ideal .f32) (t : Fin cfg3.N) (p : Fin 10000) (q : Fin 64) (r : Fin 100000)
    (hr : r.val = t.val * 10000 + p.val) :
    (((cfg3.win 3).blk t).view.read (Elt Ideal) G : S10000x64.Idx → Elt Ideal .f32) (ix2 p q) = G (ix2 r q) := by
  obtain ⟨-, -, -, -, -, -, e0, e1⟩ := blockIdx3 t
  rw [View.read_apply]
  show G _ = G _
  refine congrArg G (funext fun a => Fin.ext ?_)
  match a with
  | ⟨0, _⟩ => show win3_3.index t (0 : Fin 2) * 10000 + 1 * p.val = r.val; omega
  | ⟨1, _⟩ => show win3_3.index t (1 : Fin 2) * 64 + 1 * q.val = q.val; omega

/-- The output window is uncut: its staging buffer is written back entry for entry. -/
theorem cut3_apply (t : Fin cfg3.N) (X : S10000x64.Idx → Elt Ideal .f32) (p : Fin 10000) (q : Fin 64) :
    (cfg3.win 3).cut (grid3.coords t) X (ix2 p q) = X (ix2 p q) :=
  congrArg X (funext fun a => Fin.ext (by match a with | ⟨0, _⟩ => rfl | ⟨1, _⟩ => rfl))

/-! ## What a point writes back, the cover, the array -/

/-- Grid point t writes back block t of `scaleBias` of the arrays the region found. -/
theorem flushed3_eq (c : Dev nD) (t : Fin cfg3.N) :
    (dat3 (F := Ideal) V c).flushed 3 t = ((cfg3.win 3).blk t).view.read (Elt Ideal)
      (Cert.Gcn.scaleBias (n := 100000) (C := 64) (V c main_v39) (V c main_v15) (V c main_v40)) := by
  show (cfg3.win 3).cut (grid3.coords t) ((dat3 V c).after 3 t) = _
  rw [after3_3]
  unfold out3_3
  rw [View.canon_unit_zero zeroOff3]
  simp only [View.ld_unit_zero (S := S10000x64) zeroOff3, View.ld_unit_zero (S := S10000x1) zeroOff3,
    View.ld_unit_zero (S := S1x64) zeroOff3]
  refine funext fun (j : S10000x64.Idx) => ?_
  obtain ⟨p, q, rfl⟩ : ∃ (p : Fin 10000) (q : Fin 64), j = ix2 p q := ⟨j 0, j 1, eq_ix2 j⟩
  have hN : cfg3.N = 10 := N_3
  have ht : t.val < 10 := hN ▸ t.isLt
  have hlt : t.val * 10000 + p.val < 100000 := by omega
  refine (cut3_apply t _ p q).trans ?_
  refine Eq.trans ?_ (read3_3 _ t p q ⟨t.val * 10000 + p.val, hlt⟩ rfl).symm
  exact entry3 (V c main_v39) (V c main_v15) (V c main_v40) (iblk3 V c 0 t) (iblk3 V c 1 t) (iblk3 V c 2 t) p q
    ⟨t.val * 10000 + p.val, hlt⟩ (read3_0 V c t p q _ rfl) (read3_1 V c t p _ rfl) (read3_2 V c t q)

/-- An index of the array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v41).slice (win3_3.rect t)).set ↔ _
  rw [View.set_slice_whole, Rect.mem_set_unit]
  exact Iff.rfl

/-- Row r lies in the block of point r / 10000: the ten blocks tile the array. -/
theorem cover3 (i : S100000x64.Idx) :
    ∃ t : Fin cfg3.N, (cfg3.win 3).flush t = true ∧ i ∈ ((cfg3.win 3).blk t).view.set := by
  have hN : cfg3.N = 10 := N_3
  have hi0 : (i 0).val < 100000 := (i 0).isLt
  have hi1 : (i 1).val < 64 := (i 1).isLt
  have hlt : (i 0).val / 10000 < cfg3.N := by omega
  obtain ⟨-, -, -, -, -, -, e0, e1⟩ := blockIdx3 ⟨(i 0).val / 10000, hlt⟩
  refine ⟨⟨(i 0).val / 10000, hlt⟩, flush3_3 _, ?_⟩
  rw [mem_blk3]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_3.index ⟨(i 0).val / 10000, hlt⟩ (1 : Fin 2) * 64 ≤ (i 1).val
      ∧ (i 1).val < win3_3.index ⟨(i 0).val / 10000, hlt⟩ (1 : Fin 2) * 64 + 64
    rw [e1]; omega

/-- The array the region leaves: every row scaled by its normaliser, plus the bias row. -/
theorem region3_array (c : Dev nD) :
    (dat3 (F := Ideal) V c).arrAt 3 cfg3.N
      = Cert.Gcn.scaleBias (n := 100000) (C := 64) (V c main_v39) (V c main_v15) (V c main_v40) :=
  (dat3 (F := Ideal) V c).arrAt_eq_of_cover 3 _ (fun t _ => flushed3_eq V c t) cover3

end Cert.KernelIdeal.RegionValue

end
-- ==== Proof.KFold.lean ====
/-
  The idealized kernel's result, read through @main's segments back to the arguments.

  The buffer contents at the nine segment boundaries are a fold from the launch memory. Reading it backwards from the
  result buffer: the last kernel's output array is `scaleBias` of its three operand arrays as that kernel finds them;
  of those, the aggregate was written by the second gather and scatter-add from the third kernel's output, the column
  of normalisers by the first stretch of host operations, the bias row is a reshape of an argument; the third kernel's
  output is `scaledProduct` of the second kernel's output, an argument and the same column; and so on down to the
  first stretch, which computes the edge lists, the degrees and the normalisers from the edge-index argument alone. A
  buffer that a stretch of host operations or a kernel does not write is carried across it unchanged. Each kernel's
  output array as ONE function of its operand arrays is the business of the four region modules; each stretch of host
  operations is read by unfolding the fold at the buffer in question.
-/
import proofs.«171281_j7215545057921_2_alg».proof.Proof.Gen.KernelIdeal.Frame
import proofs.«171281_j7215545057921_2_alg».proof.Proof.KHost
import Idealize.ShloMosaic.Lib.StableHlo.Run
import proofs.«171281_j7215545057921_2_alg».proof.Proof.KRegion0
import proofs.«171281_j7215545057921_2_alg».proof.Proof.KRegion1
import proofs.«171281_j7215545057921_2_alg».proof.Proof.KRegion2
import proofs.«171281_j7215545057921_2_alg».proof.Proof.KRegion3

set_option maxRecDepth 16384

noncomputable section

namespace Cert.KernelIdeal.FoldValue

open Cert.KernelIdeal Cert.KernelIdeal.Gen Cert.KernelIdeal.HostValue Cert.KernelIdeal.RegionValue
open Idealize.ShloMosaic Idealize.ShloMosaic.TcCoe Idealize.SL.Sem Idealize.ShloMosaic.StableHlo

/-! ## The normalisers at any float instance

The stretch that selects the guarded inverse square root is an outlined function, whose operations carry their operands
through identity transports of the buffer types; at a generic float instance these transports reduce by computation, so
the column of normalisers at region 0's entry is read once, generically, and then taken at the extended reals. -/

section Generic

variable {F : FTy → Type} [FloatOps F]

/-- Every node's degree, at any float instance. -/
def degreeG (a : IVec S2x1600000 32) : FVec F S100000 .f32 :=
  Host.scatterAdd scatter_S100000_S1700000x1_S1700000_n_0_0_1 (broadcastInDim S100000 ![] Facts₀.bcast_S_S100000 (constant S_ .f32 0x00000000#32)) (dstCol a) (broadcastInDim S1700000 ![] Facts₀.bcast_S_S1700000 (constant S_ .f32 0x3F800000#32))
/-- The normaliser, at any float instance. -/
def dinvG (a : IVec S2x1600000 32) : FVec F S100000 .f32 :=
  select (cmpf (F := F) .ogt (degreeG a) (broadcastInDim S100000 ![] Facts₀.bcast_S_S100000 (constant S_ .f32 0x00000000#32))) (Host.rsqrt (degreeG a)) (broadcastInDim S100000 ![] Facts₀.bcast_S_S100000 (constant S_ .f32 0x00000000#32))
/-- The normaliser as a column, at any float instance. -/
def dinvColG (a : IVec S2x1600000 32) : FVec F S100000x1 .f32 :=
  shapeCast _ (dinvG (F := F) a) Facts₀.shapeCasts_S100000_S100000x1

set_option maxHeartbeats 4000000 in
/-- At region 0's entry the column buffer holds the normalisers of the launched edge index. -/
theorem W3_v15G (m : (ℓ : Loc nD τ sig) → Buf (Elt F) ℓ) (ρ : Dev nD → PrngReg) (c : Dev nD) :
    W3 m ρ c (Proc.devRef .tc main_v15) = dinvColG (F := F) (m ((c.tc : Thread nD τ).loc main_arg1)) := by
  dsimp only [W3, W2, W1, hostOps0, hostOps0_1, hostOps0_2]
  after_results
  rfl

end Generic

/-- At the extended reals it is the column named in the specification of the host operations. -/
theorem dinvColG_ideal (a : IVec S2x1600000 32) : dinvColG (F := Ideal) a = dinvCol a := rfl

variable (m : (ℓ : Loc nD τ sig) → Buf (Elt Ideal) ℓ) (ρ : Dev nD → PrngReg) (c : Dev nD)

/-! ## The intermediate arrays as functions of the arguments -/

/-- The first product, rows scaled. -/
abbrev X1 : FVec Ideal S100000x128 .f32 :=
  Cert.Gcn.scaledProduct (n := 100000) (K := 512) (C := 128) (m ((c.tc : Thread nD τ).loc main_arg0))
    (m ((c.tc : Thread nD τ).loc main_arg2)) (dinvCol (m ((c.tc : Thread nD τ).loc main_arg1)))
/-- Its aggregate. -/
abbrev G1 : FVec Ideal S100000x128 .f32 :=
  Cert.Gcn.aggregate (N := 100000) (E := 1700000) (C := 128) (by decide) (srcCol (m ((c.tc : Thread nD τ).loc main_arg1)))
    (dstCol (m ((c.tc : Thread nD τ).loc main_arg1))) (X1 m c)
/-- The hidden layer. -/
abbrev H1 : FVec Ideal S100000x128 .f32 :=
  Cert.Gcn.scaleBiasRelu (n := 100000) (C := 128) (G1 m c) (dinvCol (m ((c.tc : Thread nD τ).loc main_arg1)))
    (shapeCast _ (m ((c.tc : Thread nD τ).loc main_arg3)) Facts₀.shapeCasts_S128_S1x128)
/-- The second product, rows scaled. -/
abbrev X2 : FVec Ideal S100000x64 .f32 :=
  Cert.Gcn.scaledProduct (n := 100000) (K := 128) (C := 64) (H1 m c) (m ((c.tc : Thread nD τ).loc main_arg4))
    (dinvCol (m ((c.tc : Thread nD τ).loc main_arg1)))
/-- Its aggregate. -/
abbrev G2 : FVec Ideal S100000x64 .f32 :=
  Cert.Gcn.aggregate (N := 100000) (E := 1700000) (C := 64) (by decide) (srcCol (m ((c.tc : Thread nD τ).loc main_arg1)))
    (dstCol (m ((c.tc : Thread nD τ).loc main_arg1))) (X2 m c)

/-! ## Region 0's entry: the three stretches of host operations from the launch memory -/

theorem W3_v5 : W3 m ρ c (Proc.devRef .tc main_v5) = srcList (m ((c.tc : Thread nD τ).loc main_arg1)) := by
  dsimp only [W3, W2, W1, hostOps0, hostOps0_1, hostOps0_2]
  after_results
  rfl
theorem W3_v6 : W3 m ρ c (Proc.devRef .tc main_v6) = dstList (m ((c.tc : Thread nD τ).loc main_arg1)) := by
  dsimp only [W3, W2, W1, hostOps0, hostOps0_1, hostOps0_2]
  after_results
  rfl
theorem W3_v15 : W3 m ρ c (Proc.devRef .tc main_v15) = dinvCol (m ((c.tc : Thread nD τ).loc main_arg1)) :=
  (W3_v15G m ρ c).trans (dinvColG_ideal _)
theorem W3_arg0 : W3 m ρ c (Proc.devRef .tc main_arg0) = m ((c.tc : Thread nD τ).loc main_arg0) := by
  dsimp only [W3, W2, W1, hostOps0, hostOps0_1, hostOps0_2]
  after_results
theorem W3_arg2 : W3 m ρ c (Proc.devRef .tc main_arg2) = m ((c.tc : Thread nD τ).loc main_arg2) := by
  dsimp only [W3, W2, W1, hostOps0, hostOps0_1, hostOps0_2]
  after_results
theorem W3_arg3 : W3 m ρ c (Proc.devRef .tc main_arg3) = m ((c.tc : Thread nD τ).loc main_arg3) := by
  dsimp only [W3, W2, W1, hostOps0, hostOps0_1, hostOps0_2]
  after_results
theorem W3_arg4 : W3 m ρ c (Proc.devRef .tc main_arg4) = m ((c.tc : Thread nD τ).loc main_arg4) := by
  dsimp only [W3, W2, W1, hostOps0, hostOps0_1, hostOps0_2]
  after_results
theorem W3_arg5 : W3 m ρ c (Proc.devRef .tc main_arg5) = m ((c.tc : Thread nD τ).loc main_arg5) := by
  dsimp only [W3, W2, W1, hostOps0, hostOps0_1, hostOps0_2]
  after_results

/-! ## Region 0's exit -/

theorem W4_v16 : W4 m ρ c (Proc.devRef .tc main_v16) = X1 m c := by
  refine (W4_arr m ρ c 3).trans ((region0_array (V3 m ρ) c).trans ?_)
  show Cert.Gcn.scaledProduct (n := 100000) (K := 512) (C := 128) (W3 m ρ c (Proc.devRef .tc main_arg0))
    (W3 m ρ c (Proc.devRef .tc main_arg2)) (W3 m ρ c (Proc.devRef .tc main_v15)) = _
  rw [W3_arg0 m ρ c, W3_arg2 m ρ c, W3_v15 m ρ c]
theorem W4_v15 : W4 m ρ c (Proc.devRef .tc main_v15) = dinvCol (m ((c.tc : Thread nD τ).loc main_arg1)) :=
  ((W4_arr m ρ c 2).trans (((dat0 (V3 m ρ) c).arrAt_in 2 rfl _).trans (A_eq0 (V3 m ρ) c 2))).trans (W3_v15 m ρ c)
theorem W4_v5 : W4 m ρ c (Proc.devRef .tc main_v5) = srcList (m ((c.tc : Thread nD τ).loc main_arg1)) :=
  (W4_of_ne m ρ c main_v5 (by decide)).trans (W3_v5 m ρ c)
theorem W4_v6 : W4 m ρ c (Proc.devRef .tc main_v6) = dstList (m ((c.tc : Thread nD τ).loc main_arg1)) :=
  (W4_of_ne m ρ c main_v6 (by decide)).trans (W3_v6 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ## Region 1's entry: the first gather and scatter-add -/

theorem W5_v26 : W5 m ρ c (Proc.devRef .tc main_v26) = G1 m c := by
  dsimp only [W5, hostOps1]
  after_results
  rw [W4_v5 m ρ c, W4_v6 m ρ c, W4_v16 m ρ c]
  exact gatherScatter128 _ _ _
theorem W5_v27 : W5 m ρ c (Proc.devRef .tc main_v27) = shapeCast _ (m ((c.tc : Thread nD τ).loc main_arg3)) Facts₀.shapeCasts_S128_S1x128 := by
  dsimp only [W5, hostOps1]
  after_results
  rw [W4_arg3 m ρ c]
  rfl
theorem W5_v15 : W5 m ρ c (Proc.devRef .tc main_v15) = dinvCol (m ((c.tc : Thread nD τ).loc main_arg1)) := by
  dsimp only [W5, hostOps1]
  after_results
  exact W4_v15 m ρ c
theorem W5_v5 : W5 m ρ c (Proc.devRef .tc main_v5) = srcList (m ((c.tc : Thread nD τ).loc main_arg1)) := by
  dsimp only [W5, hostOps1]
  after_results
  exact W4_v5 m ρ c
theorem W5_v6 : W5 m ρ c (Proc.devRef .tc main_v6) = dstList (m ((c.tc : Thread nD τ).loc main_arg1)) := by
  dsimp only [W5, hostOps1]
  after_results
  exact W4_v6 m ρ c
theorem W5_arg4 : W5 m ρ c (Proc.devRef .tc main_arg4) = m ((c.tc : Thread nD τ).loc main_arg4) := by
  dsimp only [W5, hostOps1]
  after_results
  exact W4_arg4 m ρ c
theorem W5_arg5 : W5 m ρ c (Proc.devRef .tc main_arg5) = m ((c.tc : Thread nD τ).loc main_arg5) := by
  dsimp only [W5, hostOps1]
  after_results
  exact W4_arg5 m ρ c

/-! ## Region 1's exit, which is region 2's entry -/

theorem W6_v28 : W6 m ρ c (Proc.devRef .tc main_v28) = H1 m c := by
  refine (W6_arr m ρ c 3).trans ((region1_array (V5 m ρ) c).trans ?_)
  show Cert.Gcn.scaleBiasRelu (n := 100000) (C := 128) (W5 m ρ c (Proc.devRef .tc main_v26))
    (W5 m ρ c (Proc.devRef .tc main_v15)) (W5 m ρ c (Proc.devRef .tc main_v27)) = _
  rw [W5_v26 m ρ c, W5_v15 m ρ c, W5_v27 m ρ c]
theorem W6_v15 : W6 m ρ c (Proc.devRef .tc main_v15) = dinvCol (m ((c.tc : Thread nD τ).loc main_arg1)) :=
  ((W6_arr m ρ c 1).trans (((dat1 (V5 m ρ) c).arrAt_in 1 rfl _).trans (A_eq1 (V5 m ρ) c 1))).trans (W5_v15 m ρ c)
theorem W6_v5 : W6 m ρ c (Proc.devRef .tc main_v5) = srcList (m ((c.tc : Thread nD τ).loc main_arg1)) :=
  (W6_of_ne m ρ c main_v5 (by decide)).trans (W5_v5 m ρ c)
theorem W6_v6 : W6 m ρ c (Proc.devRef .tc main_v6) = dstList (m ((c.tc : Thread nD τ).loc main_arg1)) :=
  (W6_of_ne m ρ c main_v6 (by decide)).trans (W5_v6 m ρ c)
theorem W6_arg4 : W6 m ρ c (Proc.devRef .tc main_arg4) = m ((c.tc : Thread nD τ).loc main_arg4) :=
  (W6_of_ne m ρ c main_arg4 (by decide)).trans (W5_arg4 m ρ c)
theorem W6_arg5 : W6 m ρ c (Proc.devRef .tc main_arg5) = m ((c.tc : Thread nD τ).loc main_arg5) :=
  (W6_of_ne m ρ c main_arg5 (by decide)).trans (W5_arg5 m ρ c)

/-! ## Region 2's exit -/

theorem W7_v29 : W7 m ρ c (Proc.devRef .tc main_v29) = X2 m c := by
  refine (W7_arr m ρ c 3).trans ((region2_array (V6 m ρ) c).trans ?_)
  show Cert.Gcn.scaledProduct (n := 100000) (K := 128) (C := 64) (W6 m ρ c (Proc.devRef .tc main_v28))
    (W6 m ρ c (Proc.devRef .tc main_arg4)) (W6 m ρ c (Proc.devRef .tc main_v15)) = _
  rw [W6_v28 m ρ c, W6_arg4 m ρ c, W6_v15 m ρ c]
theorem W7_v15 : W7 m ρ c (Proc.devRef .tc main_v15) = dinvCol (m ((c.tc : Thread nD τ).loc main_arg1)) :=
  ((W7_arr m ρ c 2).trans (((dat2 (V6 m ρ) c).arrAt_in 2 rfl _).trans (A_eq2 (V6 m ρ) c 2))).trans (W6_v15 m ρ c)
theorem W7_v5 : W7 m ρ c (Proc.devRef .tc main_v5) = srcList (m ((c.tc : Thread nD τ).loc main_arg1)) :=
  (W7_of_ne m ρ c main_v5 (by decide)).trans (W6_v5 m ρ c)
theorem W7_v6 : W7 m ρ c (Proc.devRef .tc main_v6) = dstList (m ((c.tc : Thread nD τ).loc main_arg1)) :=
  (W7_of_ne m ρ c main_v6 (by decide)).trans (W6_v6 m ρ c)
theorem W7_arg5 : W7 m ρ c (Proc.devRef .tc main_arg5) = m ((c.tc : Thread nD τ).loc main_arg5) :=
  (W7_of_ne m ρ c main_arg5 (by decide)).trans (W6_arg5 m ρ c)

/-! ## Region 3's entry: the second gather and scatter-add -/

theorem W8_v39 : W8 m ρ c (Proc.devRef .tc main_v39) = G2 m c := by
  dsimp only [W8, hostOps3]
  after_results
  rw [W7_v5 m ρ c, W7_v6 m ρ c, W7_v29 m ρ c]
  exact gatherScatter64 _ _ _
theorem W8_v40 : W8 m ρ c (Proc.devRef .tc main_v40) = shapeCast _ (m ((c.tc : Thread nD τ).loc main_arg5)) Facts₀.shapeCasts_S64_S1x64 := by
  dsimp only [W8, hostOps3]
  after_results
  rw [W7_arg5 m ρ c]
  rfl
theorem W8_v15 : W8 m ρ c (Proc.devRef .tc main_v15) = dinvCol (m ((c.tc : Thread nD τ).loc main_arg1)) := by
  dsimp only [W8, hostOps3]
  after_results
  exact W7_v15 m ρ c

/-! ## The result -/

/-- THE KERNEL'S RESULT: the last boundary's contents of the result buffer are the two-layer function of the six
    argument arrays as launched. -/
theorem result_value : W9 m ρ c (Proc.devRef .tc main_v41)
    = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 3).trans ((region3_array (V8 m ρ) c).trans ?_)
  show Cert.Gcn.scaleBias (n := 100000) (C := 64) (W8 m ρ c (Proc.devRef .tc main_v39))
    (W8 m ρ c (Proc.devRef .tc main_v15)) (W8 m ρ c (Proc.devRef .tc main_v40)) = _
  rw [W8_v39 m ρ c, W8_v15 m ρ c, W8_v40 m ρ c]
  rfl

end Cert.KernelIdeal.FoldValue

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.Finite.lean ====
/-
  The precondition read back: every float input holds real numbers.

  The precondition is the conjunction, over the five float inputs, of "every entry's absolute value is below +∞": an
  `and` of five all-reductions of elementwise comparisons against the word of +∞. A conjunction of one-bit words that is 1
  has every conjunct 1, an all-reduction that is 1 has every element 1, and an extended real `x` with `max x (-x) < ⊤` is
  neither infinity, that is, a real number.
-/
import proofs.«171281_j7215545057921_2_alg».proof.Pre_finite_inputs
import proofs.«171281_j7215545057921_2_alg».proof.Proof.LibGcnLayer
import Idealize.ShloMosaic.PureOps.Ideal
import Idealize.ShloMosaic.Lib.ReduceAll

noncomputable section

namespace Cert.Finite

open Idealize.ShloMosaic Cert.GcnLaw Cert.Pre_finite_inputs

/-- The scalar shape has one index. -/
instance : Subsingleton S_.Idx := ⟨fun a b => funext fun d => d.elim0⟩

/-- A conjunction of one-bit words is 1 exactly when both are. -/
theorem and1 : ∀ (a b : BitVec 1), IntOp.andi a b = 1#1 ↔ a = 1#1 ∧ b = 1#1 := by decide

/-- The word 0x7F800000 denotes +∞. -/
theorem ofBits_inf : Ideal.ofBits .f32 0x7F800000#32 = (⊤ : EReal) := by
  simp [Ideal.ofBits, Ideal.ieee]

/-- An extended real whose absolute value compares below +∞ is a real number. -/
theorem isReal_of_abs_lt (x : EReal) (h : Ideal.cmp .olt (max x (-x)) (Ideal.ofBits .f32 0x7F800000#32) = 1#1) :
    IsReal x := by
  rw [ofBits_inf] at h
  have hlt : max x (-x) < (⊤ : EReal) := by
    by_contra hn
    have h' : BitVec.ofBool (decide (max x (-x) < (⊤ : EReal))) = 1#1 := h
    rw [decide_eq_false hn] at h'
    exact absurd h' (by decide)
  induction x using EReal.rec with
  | bot => simp at hlt
  | coe r => exact ⟨r, rfl⟩
  | top => simp at hlt

/-- One entry: where the comparison of `|x|` against the splat of +∞ is 1, the entry is real. -/
theorem entry_real {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    IsReal (x i) :=
  isReal_of_abs_lt (x i) h

variable [Facts]

/-- THE PRECONDITION DECODED: all ones means every entry of every float input is a real number. -/
theorem real_of_pre (x0 : FVec Ideal S100000x512 .f32) (x1 : IVec S2x1600000 32) (x2 : FVec Ideal S512x128 .f32)
    (x3 : FVec Ideal S128 .f32) (x4 : FVec Ideal S128x64 .f32) (x5 : FVec Ideal S64 .f32)
    (h : fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have e := congrFun h (fun a => a.elim0)
  dsimp only [fn, fn_part1] at e
  simp only [andi, and1] at e
  obtain ⟨⟨⟨⟨h0, h2⟩, h3⟩, h4⟩, h5⟩ := e
  exact ⟨fun i => entry_real x0 _ i (Host.reduce_andi_all _ _ _ _ _ h0 i),
    fun i => entry_real x2 _ i (Host.reduce_andi_all _ _ _ _ _ h2 i),
    fun i => entry_real x3 _ i (Host.reduce_andi_all _ _ _ _ _ h3 i),
    fun i => entry_real x4 _ i (Host.reduce_andi_all _ _ _ _ _ h4 i),
    fun i => entry_real x5 _ i (Host.reduce_andi_all _ _ _ _ _ h5 i)⟩

end Cert.Finite

end
-- ==== Proof.LibGcnFactoredNorm.lean ====
/-
  The two arrangements of a normalised graph-convolution layer agree on real entries.

  At node `v`, feature `c`, one arrangement computes `(Σ_e xw (g e, c) · d (g e)) · d v + b c` — the rows of `xw` scaled
  once, the gathered rows summed, the sum scaled by the destination's normaliser — and the other
  `Σ_e xw (g e, c) · (d (g e) · d (t e)) + b c`, the sum over the edges `e` that land on `v`, `g e` the row the edge
  reads and `t e` the row its destination index reads. An edge that lands on `v` has `t e = v`, so the two differ by
  moving the factor `d v` into a finite sum: `(Σ_e a_e · p_e) · q = Σ_e a_e · (p_e · q)`. On the extended reals a
  product does not distribute over a sum at the infinities, so the law is stated for entries that are real numbers and
  proved in `ℝ`. A product of real matrices, a layer of real entries and a rectified layer are real again, which carries
  the law through two layers.
-/
import proofs.«171281_j7215545057921_2_alg».proof.Proof.LibGcnSpec
import proofs.«171281_j7215545057921_2_alg».proof.Proof.LibGcnLayer

noncomputable section

open scoped BigOperators

namespace Cert.Gcn

open Idealize.ShloMosaic Idealize.ShloMosaic.ValueIdx Idealize.ShloMosaic.RowOps Cert.GcnLaw

/-- A real factor moves into a finite sum of products of reals. -/
theorem sum_mul_assoc_real {ι : Type} (S : Finset ι) (a p : ι → EReal) (q : EReal)
    (ha : ∀ e, IsReal (a e)) (hp : ∀ e, IsReal (p e)) (hq : IsReal q) :
    (∑ e ∈ S, a e * p e) * q = ∑ e ∈ S, a e * (p e * q) := by
  choose a' ha' using ha
  choose p' hp' using hp
  obtain ⟨q', rfl⟩ := hq
  have hL : (∑ e ∈ S, a e * p e) * (q' : EReal) = (((∑ e ∈ S, a' e * p' e) * q' : ℝ) : EReal) := by
    rw [EReal.coe_mul, coe_sum]
    congr 1
    refine Finset.sum_congr rfl fun e _ => ?_
    rw [EReal.coe_mul, ha' e, hp' e]
  have hR : ∑ e ∈ S, a e * (p e * (q' : EReal)) = ((∑ e ∈ S, a' e * (p' e * q') : ℝ) : EReal) := by
    rw [coe_sum]
    refine Finset.sum_congr rfl fun e _ => ?_
    rw [EReal.coe_mul, EReal.coe_mul, ha' e, hp' e]
  rw [hL, hR]
  congr 1
  rw [Finset.sum_mul]
  refine Finset.sum_congr rfl fun e _ => ?_
  ring

/-- A product of matrices of reals has real entries. -/
theorem product_real {n K C : Nat} (x : Mat n K) (w : Mat K C) (hx : ∀ i, IsReal (x i)) (hw : ∀ i, IsReal (w i))
    (i : (⟨2, ![n, C]⟩ : Shape).Idx) : IsReal (product x w i) :=
  IsReal.sum _ _ fun k _ => (hx _).mul (hw _)

/-- A layer over real transformed features, real normalisers and a real bias has real entries. -/
theorem layerRef_real {N E C : Nat} (hN : 0 < N) (src dst dstn : Col E) (dinv : Vect N) (xw : Mat N C) (b : Vect C)
    (hxw : ∀ i, IsReal (xw i)) (hdinv : ∀ r : Fin N, IsReal (dinv (ix1 r))) (hb : ∀ c : Fin C, IsReal (b (ix1 c)))
    (i : (⟨2, ![N, C]⟩ : Shape).Idx) : IsReal (layerRef hN src dst dstn dinv xw b i) := by
  obtain ⟨v, c, rfl⟩ : ∃ (v : Fin N) (c : Fin C), i = ix2 v c := ⟨i 0, i 1, eq_ix2 i⟩
  rw [layerRef_apply]
  exact (IsReal.sum _ _ fun e _ => (hxw _).mul ((hdinv _).mul (hdinv _))).add (hb c)

/-- ONE LAYER: the rows scaled once, aggregated, and the aggregate scaled by the destination's normaliser is the
    layer with every edge scaled by both normalisers. `s` is the normalisers as a column, `b` the bias as a row, and
    `dstn` reads, on an edge that lands on a row, the same index as `dst`. -/
theorem layer_eq {N E K C : Nat} (hN : 0 < N) (src dst dstn : Col E) (dinv : Vect N) (s : Mat N 1)
    (x : Mat N K) (w : Mat K C) (bv : Vect C) (b : Mat 1 C)
    (hs : ∀ r : Fin N, s (ix2 r (0 : Fin 1)) = dinv (ix1 r)) (hb : ∀ c : Fin C, b (ix2 (0 : Fin 1) c) = bv (ix1 c))
    (hd : ∀ (e : Fin E) (v : Fin N), lands dst e v → dstn (ix2 e (0 : Fin 1)) = dst (ix2 e (0 : Fin 1)))
    (hx : ∀ i, IsReal (x i)) (hw : ∀ i, IsReal (w i)) (hdinv : ∀ r : Fin N, IsReal (dinv (ix1 r))) :
    scaleBias (aggregate hN src dst (scaledProduct x w s)) s b = layerRef hN src dst dstn dinv (product x w) bv := by
  funext i
  obtain ⟨v, c, rfl⟩ : ∃ (v : Fin N) (c : Fin C), i = ix2 v c := ⟨i 0, i 1, eq_ix2 i⟩
  rw [scaleBias_apply, aggregate_apply, layerRef_apply, hs, hb]
  congr 1
  have h1 : ∀ e : Fin E, scaledProduct x w s (ix2 (pickRow hN src e) c)
      = product x w (ix2 (pickRow hN src e) c) * dinv (ix1 (pickRow hN src e)) := fun e => by
    rw [← hs]; rfl
  rw [Finset.sum_congr rfl (fun e _ => h1 e),
    sum_mul_assoc_real _ _ _ _ (fun e => product_real x w hx hw _) (fun e => hdinv _) (hdinv v)]
  refine Finset.sum_congr rfl fun e he => ?_
  have hl : lands dst e v := (Finset.mem_filter.mp he).2
  rw [pickRow_of_lands_of_eq hN dst dstn e v hl (hd e v hl)]

/-- TWO LAYERS with a rectifier between: the arrangement that scales rows, aggregates and rescales, twice, is the
    arrangement that scales every edge by both normalisers, twice, on real inputs. -/
theorem two_layers_eq {N E K C1 C2 : Nat} (hN : 0 < N) (src dst dstn : Col E) (dinv : Vect N) (s : Mat N 1)
    (x : Mat N K) (w1 : Mat K C1) (bv1 : Vect C1) (b1 : Mat 1 C1) (w2 : Mat C1 C2) (bv2 : Vect C2) (b2 : Mat 1 C2)
    (hs : ∀ r : Fin N, s (ix2 r (0 : Fin 1)) = dinv (ix1 r))
    (hb1 : ∀ c : Fin C1, b1 (ix2 (0 : Fin 1) c) = bv1 (ix1 c)) (hb2 : ∀ c : Fin C2, b2 (ix2 (0 : Fin 1) c) = bv2 (ix1 c))
    (hd : ∀ (e : Fin E) (v : Fin N), lands dst e v → dstn (ix2 e (0 : Fin 1)) = dst (ix2 e (0 : Fin 1)))
    (hx : ∀ i, IsReal (x i)) (hw1 : ∀ i, IsReal (w1 i)) (hbv1 : ∀ c : Fin C1, IsReal (bv1 (ix1 c)))
    (hw2 : ∀ i, IsReal (w2 i)) (hdinv : ∀ r : Fin N, IsReal (dinv (ix1 r))) :
    scaleBias (aggregate hN src dst
        (scaledProduct (scaleBiasRelu (aggregate hN src dst (scaledProduct x w1 s)) s b1) w2 s)) s b2
      = layerRef hN src dst dstn dinv
          (product (fun i => max (layerRef hN src dst dstn dinv (product x w1) bv1 i) 0) w2) bv2 := by
  have e1 : scaleBiasRelu (aggregate hN src dst (scaledProduct x w1 s)) s b1
      = fun i => max (layerRef hN src dst dstn dinv (product x w1) bv1 i) 0 := by
    funext i
    show max (scaleBias (aggregate hN src dst (scaledProduct x w1 s)) s b1 i) 0 = _
    rw [layer_eq hN src dst dstn dinv s x w1 bv1 b1 hs hb1 hd hx hw1 hdinv]
  rw [e1]
  refine layer_eq hN src dst dstn dinv s _ w2 bv2 b2 hs hb2 hd (fun i => ?_) hw2 hdinv
  exact (layerRef_real hN src dst dstn dinv _ bv1 (product_real x w1 hx hw1) hdinv hbv1 i).max IsReal.zero

end Cert.Gcn

end
-- ==== Proof.RefCols.lean ====
/-
  The graph part of the two-layer network, named once.

  Both layers normalise and aggregate over the same edge list: the given edges followed by one self-loop per node.
  The program computes that list, the degree normalisers and the index columns twice, once per layer, as textual
  copies. Here the first layer's copies are given names — the source column, the destination column as the scatter
  reads it, the destination column as the gather of normalisers reads it (negative entries wrapped), and the vector
  of normalisers — and each of the other copies is identified with the one it repeats. The copies differ only in the
  names of their constants, so every identification is by unfolding names.
-/
import proofs.«171281_j7215545057921_2_alg».proof.Proof.RefRead
import proofs.«171281_j7215545057921_2_alg».proof.Proof.LibGcnSpec

noncomputable section

namespace Cert.ReferenceIdeal.RefValue

open Cert.ReferenceIdeal Cert.ReferenceIdeal.Read Idealize.ShloMosaic Idealize.ShloMosaic.ValueIdx Idealize.ShloMosaic.RowOps

/-- The edge list's source column, negative entries wrapped, as the row gather of features reads it. -/
abbrev srcCol (a : (⟨S2x1600000, .i32⟩ : BufTy).Contents (Elt Ideal)) : Cert.Gcn.Col 1700000 := val_main_v36 (F := Ideal) a
/-- The destination column as the scatters read it (not wrapped). -/
abbrev dstCol (a : (⟨S2x1600000, .i32⟩ : BufTy).Contents (Elt Ideal)) : Cert.Gcn.Col 1700000 := val_main_v42 (F := Ideal) a
/-- The destination column, negative entries wrapped, as the gather of normalisers reads it. -/
abbrev dstnCol (a : (⟨S2x1600000, .i32⟩ : BufTy).Contents (Elt Ideal)) : Cert.Gcn.Col 1700000 := val_main_v28 (F := Ideal) a
/-- The nodes' normalisers: the inverse square root of the degree where it is positive, zero elsewhere. -/
abbrev dinvVec (a : (⟨S2x1600000, .i32⟩ : BufTy).Contents (Elt Ideal)) : Cert.Gcn.Vect 100000 := val_main_v15 (F := Ideal) a

variable (a : (⟨S2x1600000, .i32⟩ : BufTy).Contents (Elt Ideal))

/-! ## The copies -/

/-- The source list joined with the self-loops, second copy. -/
theorem v50_eq : val_main_v50 (F := Ideal) a = val_main_v6 (F := Ideal) a := rfl
/-- The destination list joined with the self-loops, second copy. -/
theorem v51_eq : val_main_v51 (F := Ideal) a = val_main_v7 (F := Ideal) a := rfl

/-- The source column the first layer's gather of normalisers reads is the one its row gather reads. -/
theorem v21_eq : val_main_v21 (F := Ideal) a = val_main_v36 (F := Ideal) a := rfl
/-- The second layer's two source columns. -/
theorem v65_eq : val_main_v65 (F := Ideal) a = val_main_v36 (F := Ideal) a := rfl
theorem v80_eq : val_main_v80 (F := Ideal) a = val_main_v36 (F := Ideal) a := rfl
/-- The second layer's wrapped destination column. -/
theorem v72_eq : val_main_v72 (F := Ideal) a = val_main_v28 (F := Ideal) a := rfl
/-- The second layer's destination column. -/
theorem v86_eq : val_main_v86 (F := Ideal) a = val_main_v42 (F := Ideal) a := rfl
/-- The second layer's normalisers. -/
theorem v59_eq : val_main_v59 (F := Ideal) a = val_main_v15 (F := Ideal) a := rfl

end Cert.ReferenceIdeal.RefValue

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibGcnHostLayer.lean ====
/-
  One graph-convolution layer as the host computes it, read at an entry.

  The host forms the per-edge weight as the product of two gathers of the normaliser vector (at the source column
  and at the wrapped destination column), sends it across the feature columns, multiplies the gathered feature rows
  by it, scatter-adds the products into a zero matrix at the destination column, and adds the bias vector laid along
  the rows. Read at node `v`, feature `c` on the extended reals this is the specification's layer formula: the sum
  over the edges landing on `v` of the source row's entry times the two normalisers, plus the bias entry. The
  statement is generic in the sizes; the dimension records are the literal ones over any proof of their conditions.
-/
import proofs.«171281_j7215545057921_2_alg».proof.Proof.LibGcnSpec
import proofs.«171281_j7215545057921_2_alg».proof.Proof.LibGraphAggregate
import proofs.«171281_j7215545057921_2_alg».proof.Proof.LibVecBcast
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx Idealize.ShloMosaic.RowOps

/-- THE HOST'S LAYER READ AT `(v, c)`: scatter-add, into zeros at `dst`, of the rows of `xw` gathered at `src` times
    the edge weights `dinv[src] · dinv[dstn]`, plus the bias along the rows, is `layerRef`. -/
theorem layer_form {N E C : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (wfv : GatherDims.WF ⟨1, ![N]⟩ ⟨2, ![E, 1]⟩ ⟨1, ![E]⟩ [] [0] [] [0] [] 1 ![1])
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (c1 : (⟨1, ![C]⟩ : Shape).BroadcastsInDim ⟨2, ![1, C]⟩ ![1])
    (c2 : (⟨2, ![1, C]⟩ : Shape).BroadcastsInDim ⟨2, ![N, C]⟩ ![0, 1])
    (src dst dstn : Col E) (dinv : Vect N) (xw : Mat N C) (b : Vect C)
    (v : Fin N) (c : Fin C) :
    addf (Host.scatterAdd (F := Ideal) (scatterRowsDims N E C wfs)
          (broadcastInDim ⟨2, ![N, C]⟩ ![] bz (constant (F := Ideal) ⟨0, ![]⟩ .f32 0x00000000#32)) dst
          (mulf (Host.gather (gatherRowsDims N E C wfg) xw src)
            (broadcastInDim ⟨2, ![E, C]⟩ ![0, 1] b2 (broadcastInDim ⟨2, ![E, 1]⟩ ![0] b1
              (mulf (Host.gather (gatherVecDims N E wfv) dinv src) (Host.gather (gatherVecDims N E wfv) dinv dstn))))))
        (broadcastInDim ⟨2, ![N, C]⟩ ![0, 1] c2 (broadcastInDim ⟨2, ![1, C]⟩ ![1] c1 b)) (ix2 v c)
      = layerRef hN src dst dstn dinv xw b (ix2 v c) := by
  rw [addf_apply, Idealize.ShloMosaic.RowOps.aggregate_apply hN hE wfg wfs bz b1 b2, Cert.VecBcast.rowVec_bcast_apply c1 c2,
    layerRef_apply]
  refine congrArg (· + b (ix1 c)) (Finset.sum_congr rfl fun e _ => ?_)
  rw [mulf_apply, gather_vec_apply hN wfv, gather_vec_apply hN wfv]

end Cert.Gcn

end
-- ==== Proof.RefLayers.lean ====
/-
  The reference program's result is two graph-convolution layers with a rectifier between them.

  Each layer of the program is: a matrix product with the layer's weights; a gather of the product's rows at the
  edges' source column, scaled edge by edge by the product of the source's and the destination's normalisers; a
  scatter-add of the scaled rows into a zero matrix at the destination column; and the bias vector added along the
  rows. Read at node `v`, feature `c` that is the specification's layer formula. The first layer's result passes
  through `max · 0` and is the second layer's input. The second layer repeats the first's graph stages — edge list,
  normalisers, index columns — under fresh names; they are the same functions of the edge index argument.
-/
import proofs.«171281_j7215545057921_2_alg».proof.Proof.RefCols
import proofs.«171281_j7215545057921_2_alg».proof.Proof.LibGcnHostLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Idealize.ShloMosaic.RowOps

variable (x : (⟨S100000x512, .f32⟩ : BufTy).Contents (Elt Ideal)) (a : (⟨S2x1600000, .i32⟩ : BufTy).Contents (Elt Ideal))
  (w1 : (⟨S512x128, .f32⟩ : BufTy).Contents (Elt Ideal)) (b1 : (⟨S128, .f32⟩ : BufTy).Contents (Elt Ideal))
  (w2 : (⟨S128x64, .f32⟩ : BufTy).Contents (Elt Ideal)) (b2 : (⟨S64, .f32⟩ : BufTy).Contents (Elt Ideal))

/-! ## The two matrix products -/

/-- The first product, entry `(r, c)`: `Σ_k x (r, k) · w1 (k, c)`. -/
theorem v4_eq : val_main_v4 (F := Ideal) x w1 = Cert.Gcn.product (n := 100000) (K := 512) (C := 128) x w1 := by
  funext i
  obtain ⟨r, c, rfl⟩ : ∃ (r : Fin 100000) (c : Fin 128), i = ix2 r c := ⟨i 0, i 1, eq_ix2 i⟩
  rw [val_main_v4_apply, Cert.Gcn.product_apply]
  refine Finset.sum_congr rfl fun k _ => ?_
  have el : lidx_main_v4 (ix2 r c) k = ix2 r k :=
    funext fun d => Fin.ext (by match d with | ⟨0, _⟩ => rfl | ⟨1, _⟩ => rfl)
  have er : ridx_main_v4 (ix2 r c) k = ix2 k c :=
    funext fun d => Fin.ext (by match d with | ⟨0, _⟩ => rfl | ⟨1, _⟩ => rfl)
  rw [el, er]

/-- The rectifier's zero matrix is zero at every entry. -/
theorem call1_v0_zero (i : S100000x128.Idx) : val_main_call1_v0 (F := Ideal) i = (0 : EReal) := by
  rw [val_main_call1_v0_apply, val_main_call1_cst_apply]
  exact Ideal.ofBits_zero_f32

/-! ## The first layer -/

/-- The first layer before the rectifier, at `(v, c)`. -/
theorem layer1_apply (v : Fin 100000) (c : Fin 128) :
    val_main_v46 (F := Ideal) x a w1 b1 (ix2 v c)
      = Cert.Gcn.layerRef (N := 100000) (E := 1700000) (C := 128) (by decide) (val_main_v36 (F := Ideal) a)
          (val_main_v42 (F := Ideal) a) (val_main_v28 (F := Ideal) a) (val_main_v15 (F := Ideal) a)
          (val_main_v4 (F := Ideal) x w1) b1 (ix2 v c) := by
  unfold val_main_v46 val_main_v43 val_main_v40 val_main_v37 val_main_v39 val_main_v38 val_main_v30 val_main_v22
    val_main_v29 val_main_v45 val_main_v44 val_main_v41 val_main_cst_8
  rw [v21_eq]
  generalize val_main_v4 (F := Ideal) x w1 = xw
  generalize val_main_v36 (F := Ideal) a = src
  generalize val_main_v42 (F := Ideal) a = dst
  generalize val_main_v28 (F := Ideal) a = dstn
  generalize val_main_v15 (F := Ideal) a = dinv
  exact Cert.Gcn.layer_form (N := 100000) (E := 1700000) (C := 128) (by decide) (by decide) _ _ _ _ _ _ _ _ src dst dstn dinv xw b1 v c

/-- The first layer after the rectifier, as a matrix. -/
theorem v47_eq :
    val_main_v47 (F := Ideal) x a w1 b1
      = fun i => max (Cert.Gcn.layerRef (N := 100000) (E := 1700000) (C := 128) (by decide) (srcCol a) (dstCol a)
          (dstnCol a) (dinvVec a) (Cert.Gcn.product x w1) b1 i) 0 := by
  funext i
  obtain ⟨v, c, rfl⟩ : ∃ (v : Fin 100000) (c : Fin 128), i = ix2 v c := ⟨i 0, i 1, eq_ix2 i⟩
  rw [val_main_v47_apply, layer1_apply, call1_v0_zero, Ideal.maximumf_def, v4_eq]

/-- The second product: the rectified first layer times `w2`. -/
theorem v48_eq :
    val_main_v48 (F := Ideal) x a w1 b1 w2
      = Cert.Gcn.product (fun i => max (Cert.Gcn.layerRef (N := 100000) (E := 1700000) (C := 128) (by decide) (srcCol a)
          (dstCol a) (dstnCol a) (dinvVec a) (Cert.Gcn.product x w1) b1 i) 0) w2 := by
  funext i
  obtain ⟨r, c, rfl⟩ : ∃ (r : Fin 100000) (c : Fin 64), i = ix2 r c := ⟨i 0, i 1, eq_ix2 i⟩
  rw [val_main_v48_apply, Cert.Gcn.product_apply]
  refine Finset.sum_congr rfl fun k _ => ?_
  have el : lidx_main_v48 (ix2 r c) k = ix2 r k :=
    funext fun d => Fin.ext (by match d with | ⟨0, _⟩ => rfl | ⟨1, _⟩ => rfl)
  have er : ridx_main_v48 (ix2 r c) k = ix2 k c :=
    funext fun d => Fin.ext (by match d with | ⟨0, _⟩ => rfl | ⟨1, _⟩ => rfl)
  rw [el, er, v47_eq]

/-! ## The second layer -/

/-- The second layer at `(v, c)`, over the first layer's graph stages. -/
theorem layer2_apply (v : Fin 100000) (c : Fin 64) :
    val_main_v90 (F := Ideal) x a w1 b1 w2 b2 (ix2 v c)
      = Cert.Gcn.layerRef (N := 100000) (E := 1700000) (C := 64) (by decide) (val_main_v36 (F := Ideal) a)
          (val_main_v42 (F := Ideal) a) (val_main_v28 (F := Ideal) a) (val_main_v15 (F := Ideal) a)
          (val_main_v48 (F := Ideal) x a w1 b1 w2) b2 (ix2 v c) := by
  unfold val_main_v90 val_main_v87 val_main_v84 val_main_v81 val_main_v83 val_main_v82 val_main_v74 val_main_v66
    val_main_v73 val_main_v89 val_main_v88 val_main_v85 val_main_cst_19
  rw [v86_eq, v80_eq, v65_eq, v72_eq, v59_eq]
  generalize val_main_v48 (F := Ideal) x a w1 b1 w2 = xw
  generalize val_main_v36 (F := Ideal) a = src
  generalize val_main_v42 (F := Ideal) a = dst
  generalize val_main_v28 (F := Ideal) a = dstn
  generalize val_main_v15 (F := Ideal) a = dinv
  exact Cert.Gcn.layer_form (N := 100000) (E := 1700000) (C := 64) (by decide) (by decide) _ _ _ _ _ _ _ _ src dst dstn dinv xw b2 v c

/-! ## The result -/

/-- THE REFERENCE'S RESULT: the layer formula applied to the product of the rectified first layer with `w2`. -/
theorem result_eq :
    val_main_v90 (F := Ideal) x a w1 b1 w2 b2
      = Cert.Gcn.layerRef (N := 100000) (E := 1700000) (C := 64) (by decide) (srcCol a) (dstCol a) (dstnCol a) (dinvVec a)
          (Cert.Gcn.product (fun i => max (Cert.Gcn.layerRef (N := 100000) (E := 1700000) (C := 128) (by decide) (srcCol a)
            (dstCol a) (dstnCol a) (dinvVec a) (Cert.Gcn.product x w1) b1 i) 0) w2) b2 := by
  funext i
  obtain ⟨v, c, rfl⟩ : ∃ (v : Fin 100000) (c : Fin 64), i = ix2 v c := ⟨i 0, i 1, eq_ix2 i⟩
  rw [layer2_apply, v48_eq]

end Cert.ReferenceIdeal.RefValue

end
-- ==== Proof.LibCountGuard.lean ====
/-
  A count, and the inverse square root of a count guarded at zero.

  An accumulating scatter of ones into zeros holds, at each element, the NUMBER of updates that land on it: a natural
  number read as an extended real (the element starts at 0 and every landing update adds 1). For such a value D the
  guarded expression "D^(-1/2) where D > 0, else 0" is D^(-1/2) itself on the extended reals: where the count is positive the
  guard takes the power, and where it is zero the power of two finite values is the real power, whose value at base 0 and
  a nonzero exponent is 0 — the guard's other branch. (In floating point 0^(-1/2) is +∞; the exact real power is not.)
  So a degree normalisation written with the guard and one written without it are the same vector.
  The three float words 0.0, 1.0 and -0.5 are read once, here. Nothing here mentions a program.
-/
import Idealize.ShloMosaic.PureOps.Ideal
import Idealize.ShloMosaic.PureOps.Ideal.Laws

noncomputable section

namespace Cert.CountGuard

open Idealize.ShloMosaic

/-- The word of 1.0 denotes 1. -/
theorem ofBits_one : Ideal.ofBits .f32 0x3F800000#32 = 1 := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- An accumulating scatter of ones into zeros is, at each element, a natural number: the count of the updates landing
    there. -/
theorem count_nat {s si su : Shape} (d : ScatterDims s si su) {w : Nat} (Z : s.Idx → EReal) (idx : IVec si w)
    (O : su.Idx → EReal) (hZ : ∀ i, Z i = 0) (hO : ∀ j, O j = 1) (i : s.Idx) :
    ∃ n : ℕ, Ideal.hostScatterAdd d Z idx O i = ((n : ℝ) : EReal) := by
  unfold Ideal.hostScatterAdd
  refine ⟨?n, ?h⟩
  case h =>
    rw [hZ, zero_add, Finset.sum_congr rfl (fun j _ => hO j), Finset.sum_const, nsmul_one]
    exact EReal.coe_natCast.symm

/-- For a natural number n: n^(-1/2) guarded by n > 0, with 0 otherwise, is n^(-1/2). -/
theorem guarded_pow_nat (n : ℕ) :
    Scalar.select (Ideal.cmp .ogt ((n : ℝ) : EReal) 0) (Ideal.pow ((n : ℝ) : EReal) ((-(1 / 2) : ℝ) : EReal)) (0 : EReal)
      = Ideal.pow ((n : ℝ) : EReal) ((-(1 / 2) : ℝ) : EReal) := by
  unfold Scalar.select
  rcases Nat.eq_zero_or_pos n with rfl | hn
  · have hp : Ideal.pow (((0 : ℕ) : ℝ) : EReal) ((-(1 / 2) : ℝ) : EReal) = 0 := by
      rw [Nat.cast_zero, Ideal.pow_coe_coe]
      show ((Real.rpow 0 (-(1 / 2)) : ℝ) : EReal) = 0
      rw [Real.rpow_eq_pow, Real.zero_rpow (by norm_num)]
      rfl
    rw [hp, Nat.cast_zero]
    simp [Ideal.cmp]
  · have hpos : (0 : EReal) < ((n : ℝ) : EReal) := by exact_mod_cast hn
    have hc : Ideal.cmp .ogt ((n : ℝ) : EReal) 0 = (1 : BitVec 1) := by
      show BitVec.ofBool (decide ((0 : EReal) < ((n : ℝ) : EReal))) = (1 : BitVec 1)
      rw [decide_eq_true hpos]; rfl
    rw [if_pos hc]

/-- The guarded inverse square root of a count vector is the unguarded one: Z, Z', Z'' are zero vectors, O a vector of
    ones, H a vector of -1/2. -/
theorem select_count_pow {s si su : Shape} (d : ScatterDims s si su) {w : Nat} (Z : FVec Ideal s .f32) (idx : IVec si w)
    (O : FVec Ideal su .f32) (Z' H Z'' : FVec Ideal s .f32)
    (hZ : ∀ i, Z i = 0) (hO : ∀ j, O j = 1) (hZ' : ∀ i, Z' i = 0) (hH : ∀ i, H i = ((-(1 / 2) : ℝ) : EReal))
    (hZ'' : ∀ i, Z'' i = 0) :
    select (cmpf .ogt (Host.scatterAdd d Z idx O) Z') (Host.powf (Host.scatterAdd d Z idx O) H) Z''
      = Host.powf (Host.scatterAdd d Z idx O) H := by
  funext i
  obtain ⟨n, hn⟩ := count_nat d Z idx O hZ hO i
  have e : Host.scatterAdd d Z idx O i = ((n : ℝ) : EReal) := hn
  show Scalar.select (Ideal.cmp .ogt (Host.scatterAdd d Z idx O i) (Z' i)) (Ideal.pow (Host.scatterAdd d Z idx O i) (H i)) (Z'' i)
    = Ideal.pow (Host.scatterAdd d Z idx O i) (H i)
  rw [e, hZ', hH, hZ'']
  exact guarded_pow_nat n

end Cert.CountGuard

end
-- ==== Proof.RefGraph.lean ====
/-
  Two facts about the graph stages of the reference program.

  (1) The gather of normalisers reads the destination list with negative entries wrapped (`d + N` where `d < 0`),
  the scatter reads it as it is. An edge that lands on a row has a destination that IS that row's number, a
  non-negative integer, so the wrap leaves it alone: on the edges that contribute to a sum the two columns agree.

  (2) Every normaliser is a real number. The degree of a node is an accumulating scatter of ones into zeros, a
  natural number `n`; the normaliser is `(√n)⁻¹` where `n > 0` and `0` where `n = 0` — the guard removes the one
  value, `n = 0`, at which the inverse square root is infinite.
-/
import proofs.«171281_j7215545057921_2_alg».proof.Proof.RefCols
import proofs.«171281_j7215545057921_2_alg».proof.Proof.LibCountGuard
import proofs.«171281_j7215545057921_2_alg».proof.Proof.LibGcnLayer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Idealize.ShloMosaic.RowOps

variable (a : (⟨S2x1600000, .i32⟩ : BufTy).Contents (Elt Ideal))

/-! ## The wrap leaves a row number alone -/

/-- A 32-bit word that reads, signed, as a natural number is not negative: `select (d < 0) y d` is `d`. -/
theorem wrap_of_nonneg (d y : BitVec 32) (n : ℕ) (h : d.toInt = (n : Int)) :
    Scalar.select (IntOp.cmpi .slt d 0#32) y d = d := by
  have hs : IntOp.cmpi .slt d 0#32 = 0#1 := by
    show BitVec.ofBool (d.slt 0#32) = 0#1
    rw [BitVec.slt_eq_decide, BitVec.toInt_zero, h, decide_eq_false (by omega)]
    rfl
  rw [hs]
  exact select_zero _ _

/-- On an edge that lands on a row, the wrapped destination column equals the destination column. -/
theorem dstn_eq_of_lands (e : Fin 1700000) (v : Fin 100000) (h : lands (dstCol a) e v) :
    dstnCol a (ix2 e (0 : Fin 1)) = dstCol a (ix2 e (0 : Fin 1)) := by
  have h' : (val_main_v42 (F := Ideal) a (ix2 e (0 : Fin 1))).toInt = ((v.val : ℕ) : Int) := h
  show val_main_v28 (F := Ideal) a (ix2 e (0 : Fin 1)) = val_main_v42 (F := Ideal) a (ix2 e (0 : Fin 1))
  have e28 : idx_main_v28 (ix2 e (0 : Fin 1)) = idx_main_v42 (ix2 e (0 : Fin 1)) := rfl
  rw [val_main_v42_apply] at h' ⊢
  rw [val_main_v28_apply, val_main_v27_apply, val_main_v24_apply, val_main_v23_apply, val_main_c_4_apply, e28]
  exact wrap_of_nonneg _ _ v.val h'

/-! ## The normalisers are real -/

/-- The inverse square root of a natural number, guarded at zero, is a real number. -/
theorem guarded_rsqrt_real (n : ℕ) :
    Cert.GcnLaw.IsReal
      (Scalar.select (Ideal.cmp .ogt ((n : ℝ) : EReal) 0) (Ideal.rsqrt ((n : ℝ) : EReal)) (0 : EReal)) := by
  unfold Scalar.select
  rcases Nat.eq_zero_or_pos n with rfl | hn
  · have hc : Ideal.cmp .ogt (((0 : ℕ) : ℝ) : EReal) 0 = (0 : BitVec 1) := by
      show BitVec.ofBool (decide ((0 : EReal) < (((0 : ℕ) : ℝ) : EReal))) = (0 : BitVec 1)
      rw [decide_eq_false (by rw [Nat.cast_zero, EReal.coe_zero]; exact lt_irrefl _)]
      rfl
    rw [hc, if_neg (by decide)]
    exact Cert.GcnLaw.IsReal.zero
  · have hpos : (0 : EReal) < ((n : ℝ) : EReal) := by exact_mod_cast hn
    have hc : Ideal.cmp .ogt ((n : ℝ) : EReal) 0 = (1 : BitVec 1) := by
      show BitVec.ofBool (decide ((0 : EReal) < ((n : ℝ) : EReal))) = (1 : BitVec 1)
      rw [decide_eq_true hpos]
      rfl
    rw [if_pos hc, Ideal.rsqrt_coe, if_neg (not_lt.mpr (Nat.cast_nonneg n)),
      if_neg (Nat.cast_ne_zero.mpr (Nat.pos_iff_ne_zero.mp hn))]
    exact Cert.GcnLaw.IsReal.coe _

/-- At the ideal instance the host's accumulating scatter is the exact sum (stated at variable shapes, where it is
    read off the instance). -/
theorem scatterAdd_ideal {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- The degree of a node is a natural number: the count of the list's entries that land on it. -/
theorem deg_nat (v : Fin 100000) : ∃ n : ℕ, val_main_v11 (F := Ideal) a (ix1 v) = ((n : ℝ) : EReal) := by
  have hZ : ∀ i, val_main_v9 (F := Ideal) i = (0 : EReal) := fun i => by
    rw [val_main_v9_apply, val_main_cst_0_apply]; exact Ideal.ofBits_zero_f32
  have hO : ∀ j, val_main_v8 (F := Ideal) j = (1 : EReal) := fun j => by
    rw [val_main_v8_apply, val_main_cst_apply]; exact Cert.CountGuard.ofBits_one
  unfold val_main_v11
  generalize val_main_v9 (F := Ideal) = Z at hZ ⊢
  generalize val_main_v8 (F := Ideal) = O at hO ⊢
  generalize val_main_v10 (F := Ideal) a = idx
  rw [scatterAdd_ideal]
  exact Cert.CountGuard.count_nat scatter_S100000_S1700000x1_S1700000_n_0_0_1 Z idx O hZ hO (ix1 v)

/-- Every normaliser is a real number. -/
theorem dinv_real (v : Fin 100000) : Cert.GcnLaw.IsReal (dinvVec a (ix1 v)) := by
  show Cert.GcnLaw.IsReal (val_main_v15 (F := Ideal) a (ix1 v))
  obtain ⟨n, hn⟩ := deg_nat a v
  have hz12 : val_main_v12 (F := Ideal) (ix1 v) = (0 : EReal) := by
    rw [val_main_v12_apply, val_main_cst_1_apply]; exact Ideal.ofBits_zero_f32
  have hz0 : val_main_call0_v0 (F := Ideal) (ix1 v) = (0 : EReal) := by
    rw [val_main_call0_v0_apply, val_main_cst_2_apply]; exact Ideal.ofBits_zero_f32
  rw [val_main_v15_apply, val_main_v13_apply, val_main_v14_apply, hn, hz12, hz0]
  exact guarded_rsqrt_real n

end Cert.ReferenceIdeal.RefValue

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.Bridge.lean ====
/-
  The two programs compute one function.

  The idealized kernel's result, as a function of the six arguments, is the arrangement "scale the rows of the product,
  aggregate, rescale" taken twice; the reference's result is the arrangement "scale every edge by both normalisers"
  taken twice. Both read the same source column, the same destination column and the same normalisers (the two programs
  spell them with the same operations), the kernel's column of normalisers and row of biases are the vectors the
  reference uses, an edge that lands on a row has a destination index that needs no wrapping, and the normalisers are
  real numbers (a guarded inverse square root of a count). So on real inputs the two results are equal by the layer law.
-/
import proofs.«171281_j7215545057921_2_alg».proof.Proof.KHost
import proofs.«171281_j7215545057921_2_alg».proof.Proof.LibGcnFactoredNorm
import proofs.«171281_j7215545057921_2_alg».proof.Proof.RefLayers
import proofs.«171281_j7215545057921_2_alg».proof.Proof.RefGraph
import proofs.«171281_j7215545057921_2_alg».proof.Proof.LibKeepdims
import proofs.«171281_j7215545057921_2_alg».proof.Proof.LibRowVector

noncomputable section

namespace Cert.Bridge

open Idealize.ShloMosaic Idealize.ShloMosaic.ValueIdx Idealize.ShloMosaic.RowOps Cert.GcnLaw

/-- On real inputs the kernel's two-layer function of the arguments is the reference's last stage. -/
theorem value_eq (x : FVec Ideal Cert.KernelIdeal.S100000x512 .f32) (a : IVec Cert.KernelIdeal.S2x1600000 32)
    (w1 : FVec Ideal Cert.KernelIdeal.S512x128 .f32) (b1 : FVec Ideal Cert.KernelIdeal.S128 .f32)
    (w2 : FVec Ideal Cert.KernelIdeal.S128x64 .f32) (b2 : FVec Ideal Cert.KernelIdeal.S64 .f32)
    (hx : ∀ i, IsReal (x i)) (hw1 : ∀ i, IsReal (w1 i)) (hb1 : ∀ i, IsReal (b1 i)) (hw2 : ∀ i, IsReal (w2 i)) :
    Cert.KernelIdeal.HostValue.value x a w1 b1 w2 b2
      = Cert.ReferenceIdeal.Read.val_main_v90 (F := Ideal) x a w1 b1 w2 b2 := by
  rw [Cert.ReferenceIdeal.RefValue.result_eq x a w1 b1 w2 b2]
  exact Cert.Gcn.two_layers_eq (N := 100000) (E := 1700000) (K := 512) (C1 := 128) (C2 := 64) (by decide)
    (Cert.KernelIdeal.HostValue.srcCol a) (Cert.KernelIdeal.HostValue.dstCol a) (Cert.ReferenceIdeal.RefValue.dstnCol a)
    (Cert.KernelIdeal.HostValue.dinv a) (Cert.KernelIdeal.HostValue.dinvCol a) x w1 b1
    (shapeCast _ b1 Cert.KernelIdeal.Facts₀.shapeCasts_S128_S1x128) w2 b2
    (shapeCast _ b2 Cert.KernelIdeal.Facts₀.shapeCasts_S64_S1x64)
    (fun r => Cert.Keepdims.shapeCast_a_a1_apply _ _ r 0)
    (fun c => Cert.RowVector.shapeCast_b_1b_apply _ _ 0 c)
    (fun c => Cert.RowVector.shapeCast_b_1b_apply _ _ 0 c)
    (fun e v h => Cert.ReferenceIdeal.RefValue.dstn_eq_of_lands a e v h)
    hx hw1 (fun c => hb1 _) hw2 (fun r => Cert.ReferenceIdeal.RefValue.dinv_real a r)

end Cert.Bridge

end
-- ==== Proof.lean ====
/-
  The certificate of a two-layer graph-convolution network: the kernel against its reference.

  Both programs compute, for node features `x`, an edge list with one self-loop per node appended, weights `W1`, `W2`
  and biases `b1`, `b2`: `h = relu (Â (x W1) + b1)`, `out = Â (h W2) + b2`, where `Â` is the adjacency matrix with each
  edge weighted by `d(source)^(-1/2) · d(destination)^(-1/2)`, `d` the degrees. The reference weights every edge by the two
  normalisers before summing the edges into a node. The kernel scales the rows of the product once in the kernel that
  computes it, sums the gathered rows unweighted, and scales the row of sums by the destination's normaliser in the
  kernel that adds the bias: it moves one factor out of a finite sum. That is true of real numbers and false at the
  infinities of the extended reals, which is where the precondition — every float input finite — is used: products of
  finite inputs are real, degrees are counts, a guarded inverse square root of a count is real, and a rectified real is
  real, so the factor moves in both layers.

  The frames of the two kernel programs are the generated runs over the nine segments of @main (three stretches of host
  operations, four kernels, two more stretches between them); the same run, with the result buffer named, gives the
  idealized kernel's value: each kernel's output array is one whole-array function of its operands (its blocks tile
  the array), and the buffers are read through the segments back to the arguments. The reference's frame and value are
  its run as a list of host operations. The idealization rewrote no operation, so `preserves` asks nothing.
-/
import proofs.«171281_j7215545057921_2_alg».proof.Defs
import proofs.«171281_j7215545057921_2_alg».proof.Proof.Gen.Kernel
import proofs.«171281_j7215545057921_2_alg».proof.Proof.Gen.Kernel.Skeleton
import proofs.«171281_j7215545057921_2_alg».proof.Proof.Gen.Kernel.Launch
import proofs.«171281_j7215545057921_2_alg».proof.Proof.Gen.Kernel.Points
import proofs.«171281_j7215545057921_2_alg».proof.Proof.Gen.Kernel.Frame
import proofs.«171281_j7215545057921_2_alg».proof.Proof.Gen.KernelIdeal
import proofs.«171281_j7215545057921_2_alg».proof.Proof.Gen.KernelIdeal.Skeleton
import proofs.«171281_j7215545057921_2_alg».proof.Proof.Gen.KernelIdeal.Launch
import proofs.«171281_j7215545057921_2_alg».proof.Proof.Gen.KernelIdeal.Points
import proofs.«171281_j7215545057921_2_alg».proof.Proof.Gen.KernelIdeal.Frame
import proofs.«171281_j7215545057921_2_alg».proof.Proof.Gen.ReferenceIdeal
import proofs.«171281_j7215545057921_2_alg».proof.Proof.Gen.Pre_finite_inputs
import proofs.«171281_j7215545057921_2_alg».proof.Proof.RefRun
import proofs.«171281_j7215545057921_2_alg».proof.Proof.RefRead
import proofs.«171281_j7215545057921_2_alg».proof.Proof.KRun
import proofs.«171281_j7215545057921_2_alg».proof.Proof.KFold
import proofs.«171281_j7215545057921_2_alg».proof.Proof.Finite
import proofs.«171281_j7215545057921_2_alg».proof.Proof.Bridge
import Idealize.ShloMosaic.Adequacy
import Idealize.ShloMosaic.Init

noncomputable section

namespace Cert.Proof

open Idealize.ShloMosaic Idealize.SL.Sem

/-- The kernel as printed runs and leaves its arguments as launched: the generated run over @main's segments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the two-layer function of the arguments: the
    kernel's run read through its segments, the reference's run read stage by stage, and the layer law on the finite
    inputs between them. -/
theorem algebraic : Cert.algebraic_KernelIdeal_ReferenceIdeal := by
  intro m ρ m' ρ' hpre hagree
  refine ⟨fun c => Cert.KernelIdeal.HostValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.FoldValue.result_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h2, h3, h4, -⟩ := Cert.Finite.real_of_pre _ _ _ _ _ _ (hpre c)
    rw [Cert.ReferenceIdeal.Read.val_main_v90_eq, (hagree c).1, (hagree c).2.1, (hagree c).2.2.1, (hagree c).2.2.2.1,
      (hagree c).2.2.2.2.1, (hagree c).2.2.2.2.2]
    exact (Cert.Bridge.value_eq _ _ _ _ _ _ h0 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
